-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S10000x128 .f32) (main_arg1 : FVec F S10000x10000 .f32) (main_arg2 : FVec F S128x128 .f32) (main_arg3 : FVec F S128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S1x128 : Shape := ⟨2, ![1, 128]⟩
abbrev S5000x128 : Shape := ⟨2, ![5000, 128]⟩
abbrev S200x10000 : Shape := ⟨2, ![200, 10000]⟩
abbrev S200x128 : Shape := ⟨2, ![200, 128]⟩

abbrev nBuf : Space → Nat
  | .hbm => 9
  | .vmem => 11
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S1x128, .f32⟩
  | .hbm, ⟨6, _⟩ => ⟨S5000x128, .f32⟩
  | .hbm, ⟨7, _⟩ => ⟨S5000x128, .f32⟩
  | .hbm, ⟨8, _⟩ => ⟨S10000x128, .f32⟩
  | .local _ .vmem, ⟨0, _⟩ => ⟨S200x10000, .f32⟩
  | .local _ .vmem, ⟨1, _⟩ => ⟨S200x10000, .f32⟩
  | .local _ .vmem, ⟨2, _⟩ => ⟨S200x10000, .f32⟩
  | .local _ .vmem, ⟨3, _⟩ => ⟨S200x10000, .f32⟩
  | .local _ .vmem, ⟨4, _⟩ => ⟨S10000x128, .f32⟩
  | .local _ .vmem, ⟨5, _⟩ => ⟨S128x128, .f32⟩
  | .local _ .vmem, ⟨6, _⟩ => ⟨S1x128, .f32⟩
  | .local _ .vmem, ⟨7, _⟩ => ⟨S200x128, .f32⟩
  | .local _ .vmem, ⟨8, _⟩ => ⟨S200x128, .f32⟩
  | .local _ .vmem, ⟨9, _⟩ => ⟨S200x128, .f32⟩
  | .local _ .vmem, ⟨10, _⟩ => ⟨S200x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![25], ![false]⟩

def k0_off1 (i : grid0.Coords) (c0_i32 : BitVec 32) : Fin 2 → Nat :=
  let arg0 : BitVec 32 := BitVec.ofNat 32 (i 0).val
  let c200_i32 : BitVec 32 := 200#32
  let v3 : BitVec 32 := Scalar.muli arg0 c200_i32
  let v4 : BitVec 32 := Scalar.addi c0_i32 v3
  let v5 : Index := Scalar.indexCast v4
  let c0_3 : Index := 0#32
  ![v5.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c25_i32 : BitVec 32 := 25#32
  let v0 : BitVec 32 := Scalar.addi c25_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S200x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S200x10000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S10000x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S200x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S200x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  transposes_S128x128_S128x128_1_0 : S128x128.Transposes [1, 0] S128x128
  shapeCasts_S128_S1x128 : S128.ShapeCasts S1x128
  inb_S200x10000_S200x10000_0_0 : ∀ a, (![0, 0] : Fin 2 → Nat) a + S200x10000.size a ≤ S200x10000.size a
  h_S200x10000 : 0 < S200x10000.numel
  inb_S10000x128_S10000x128_0_0 : ∀ a, (![0, 0] : Fin 2 → Nat) a + S10000x128.size a ≤ S10000x128.size a
  h_S10000x128 : 0 < S10000x128.numel
  h_S200x128 : 0 < S200x128.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S200x128 : S1x128.Broadcasts S200x128
  inb_S200x128_S200x128_0_0 : ∀ a, (![0, 0] : Fin 2 → Nat) a + S200x128.size a ≤ S200x128.size a
  concatenates_S5000x128_S5000x128_S10000x128_d0 : Shape.Concatenates [S5000x128, S5000x128] S10000x128 0
  dot_S200x10000_S10000x128_S200x128_1_0_0_1_n_n_wf : DotDims.WF S200x10000 S10000x128 S200x128 [1] [0] [0] [1] [] []
  dot_S200x128_S128x128_S200x128_1_0_0_1_n_n_wf : DotDims.WF S200x128 S128x128 S200x128 [1] [0] [0] [1] [] []
  hrank0 : 0 < grid0.rank
  k0_off1_inb : ∀ i : grid0.Coords, ∀ (r : Fin 2), ∀ a, (k0_off1 i (BitVec.ofNat 32 (5000 * r.val))) a + S200x128.size a ≤ S10000x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S200x10000.size a ≤ S10000x10000.size a
  hwx0_0 : ∀ i : grid0.Coords, EltTy.bits .f32 = 32 ∨ (Rect.block (s := S10000x10000) S200x10000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S200x10000.size a ≤ S10000x10000.size a
  hwx0_1 : ∀ i : grid0.Coords, EltTy.bits .f32 = 32 ∨ (Rect.block (s := S10000x10000) S200x10000.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S10000x128.size a
  hwx0_2 : ∀ i : grid0.Coords, EltTy.bits .f32 = 32 ∨ (Rect.block (s := S10000x128) S10000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S200x128.size a ≤ S5000x128.size a
  hwx0_5 : ∀ i : grid0.Coords, EltTy.bits .f32 = 32 ∨ (Rect.block (s := S5000x128) S200x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S200x128.size a ≤ S5000x128.size a
  hwx0_6 : ∀ i : grid0.Coords, EltTy.bits .f32 = 32 ∨ (Rect.block (s := S5000x128) S200x128.size (cc0_transform_6 i) (hinb0_6 i)).WholeWords (EltTy.packing .f32)

variable [Facts₀]

def dot_S200x10000_S10000x128_S200x128_1_0_0_1_n_n : DotDims S200x10000 S10000x128 S200x128 where
  lhsContracting := [1]
  rhsContracting := [0]
  lhsNonContracting := [0]
  rhsNonContracting := [1]
  lhsBatch := []
  rhsBatch := []
  wf := dot_S200x10000_S10000x128_S200x128_1_0_0_1_n_n_wf
def dot_S200x128_S128x128_S200x128_1_0_0_1_n_n : DotDims S200x128 S128x128 S200x128 where
  lhsContracting := [1]
  rhsContracting := [0]
  lhsNonContracting := [0]
  rhsNonContracting := [1]
  lhsBatch := []
  rhsBatch := []
  wf := dot_S200x128_S128x128_S200x128_1_0_0_1_n_n_wf

abbrev win0_0 : Pipeline.Window sig grid0 :=
  Pipeline.Window.ofSpec (Memref.whole main_arg1) S200x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S200x10000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S10000x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2_0) S200x128.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v2_1) S200x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S10000x64 : Shape := ⟨2, ![10000, 64]⟩
abbrev S1x128 : Shape := ⟨2, ![1, 128]⟩
abbrev S_ : Shape := ⟨0, ![]⟩

abbrev nBuf : Space → Nat
  | .hbm => 23
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S10000x64, .f32⟩
  | .hbm, ⟨5, _⟩ => ⟨S10000x64, .f32⟩
  | .hbm, ⟨6, _⟩ => ⟨S10000x64, .f32⟩
  | .hbm, ⟨7, _⟩ => ⟨S10000x64, .f32⟩
  | .hbm, ⟨8, _⟩ => ⟨S10000x128, .f32⟩
  | .hbm, ⟨9, _⟩ => ⟨S10000x128, .f32⟩
  | .hbm, ⟨10, _⟩ => ⟨S128x128, .f32⟩
  | .hbm, ⟨11, _⟩ => ⟨S10000x128, .f32⟩
  | .hbm, ⟨12, _⟩ => ⟨S1x128, .f32⟩
  | .hbm, ⟨13, _⟩ => ⟨S10000x128, .f32⟩
  | .hbm, ⟨14, _⟩ => ⟨S10000x128, .f32⟩
  | .hbm, ⟨15, _⟩ => ⟨S_, .f32⟩
  | .hbm, ⟨16, _⟩ => ⟨S_, .f32⟩
  | .hbm, ⟨17, _⟩ => ⟨S10000x128, .f32⟩
  | .hbm, ⟨18, _⟩ => ⟨S10000x128, .i1⟩
  | .hbm, ⟨19, _⟩ => ⟨S_, .f32⟩
  | .hbm, ⟨20, _⟩ => ⟨S10000x128, .f32⟩
  | .hbm, ⟨21, _⟩ => ⟨S10000x128, .f32⟩
  | .hbm, ⟨22, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst : Ref sig .tc := ⟨.hbm, 15, rfl⟩
abbrev main_call0_cst : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_v11 : Ref sig .tc := ⟨.hbm, 22, rfl⟩

abbrev nD : Nat := 1
abbrev τ : Topo := Topo.v7x

variable {F : FTy → Type} [FloatOps F]

class Facts₀ : Prop where
  slices_S10000x128_S10000x64_0_0 : S10000x128.Slices ![0, 0] S10000x64
  slices_S10000x128_S10000x64_0_64 : S10000x128.Slices ![0, 64] S10000x64
  concatenates_S10000x64_S10000x64_S10000x128_d1 : Shape.Concatenates [S10000x64, S10000x64] S10000x128 1
  transposes_S128x128_S128x128_1_0 : S128x128.Transposes [1, 0] S128x128
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S10000x128 : S_.BroadcastsInDim S10000x128 (![] : Fin 0 → Fin S10000x128.rank)
  dot_S10000x10000_S10000x64_S10000x64_1_0_0_1_n_n_wf : DotDims.WF S10000x10000 S10000x64 S10000x64 [1] [0] [0] [1] [] []
  dot_S10000x128_S128x128_S10000x128_1_0_0_1_n_n_wf : DotDims.WF S10000x128 S128x128 S10000x128 [1] [0] [0] [1] [] []

variable [Facts₀]

def dot_S10000x10000_S10000x64_S10000x64_1_0_0_1_n_n : DotDims S10000x10000 S10000x64 S10000x64 where
  lhsContracting := [1]
  rhsContracting := [0]
  lhsNonContracting := [0]
  rhsNonContracting := [1]
  lhsBatch := []
  rhsBatch := []
  wf := dot_S10000x10000_S10000x64_S10000x64_1_0_0_1_n_n_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf

class Facts : Prop extends Facts₀ where

variable [Facts]
-- ==== Proof.BodyB.lean ====
/-
  The body of the aggregation kernel at one grid point, as a statement about memory.

  At grid point i the body is handed two 200 × 10000 slabs of the adjacency matrix (rows 200·i … and rows
  5000 + 200·i …), the whole embedding matrix, the transposed weights and the bias row, each in a staging
  buffer, and two 200 × 128 output buffers.  It reads the slabs, the embedding matrix (whole, and its 200 rows
  at offsets 200·i and 5000 + 200·i), the weights and the bias, and overwrites each output buffer whole with
  one pure function of what it read.  Nothing else is touched.
-/
import proofs.«118306_g84293028151720_cont_9to1_m_1401_9_alg».proof.Proof.Gen.Kernel.Launch
import proofs.«118306_g84293028151720_cont_9to1_m_1401_9_alg».proof.Proof.Gen.Kernel.Skeleton
import proofs.«118306_g84293028151720_cont_9to1_m_1401_9_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The rectangles the body reads and writes -/

abbrev rA : Rect S200x10000 := Rect.unit (s := S200x10000) ![0, 0] S200x10000.size inb_S200x10000_S200x10000_0_0
abbrev rX : Rect S10000x128 := Rect.unit (s := S10000x128) ![0, 0] S10000x128.size inb_S10000x128_S10000x128_0_0
abbrev rW : Rect S128x128 := Rect.unit (s := S128x128) ![0, 0] S128x128.size inb_S128x128_S128x128_0_0
abbrev rB : Rect S1x128 := Rect.unit (s := S1x128) ![0, 0] S1x128.size inb_S1x128_S1x128_0_0
abbrev rO : Rect S200x128 := Rect.unit (s := S200x128) ![0, 0] S200x128.size inb_S200x128_S200x128_0_0
/-- The 200 own rows of half `h` at grid point `i`: rows 5000·h + 200·i … of the embedding matrix. -/
abbrev rOwn (i : grid0.Coords) (h : Fin 2) : Rect S10000x128 :=
  Rect.unit (s := S10000x128) (k0_off1 i (BitVec.ofNat 32 (5000 * h.val))) S200x128.size (k0_off1_inb i h)

/-! ## What the body leaves in each output buffer -/

/-- The first half's output buffer after the body. -/
def out5 (i : grid0.Coords) (a : Vec F S200x10000 .f32) (x : Vec F S10000x128 .f32) (w : Vec F S128x128 .f32) (b : Vec F S1x128 .f32) :
    Vec F S200x128 .f32 :=
  View.canon [⟨rO, k0_pay2 (View.ld a rA) (View.ld x rX) (View.ld x (rOwn i 0)) (View.ld w rW) (View.ld b rB)⟩]

/-- The second half's output buffer after the body. -/
def out6 (i : grid0.Coords) (a : Vec F S200x10000 .f32) (x : Vec F S10000x128 .f32) (w : Vec F S128x128 .f32) (b : Vec F S1x128 .f32) :
    Vec F S200x128 .f32 :=
  View.canon [⟨rO, k0_pay1 (k0_pay3 (View.ld a rA) (View.ld x rX) (View.ld x (rOwn i 1))) (k0_pay4 (View.ld w rW)) (View.ld b rB)⟩]

/-- One whole-buffer store covers the buffer. -/
theorem coverO (p0 : Vec F S200x128 .f32) (y : S200x128.Idx) :
    ∃ pc ∈ ([⟨rO, p0⟩] : List (View.Piece (Elt F) S200x128 .f32)), y ∈ pc.1.set :=
  View.cover_of_tiled [⟨rO, p0⟩] S200x128.size (by rfl) y

/-! ## The body's triple -/

set_option maxHeartbeats 2000000 in
/-- The body on whole staging memrefs: the five inputs' at read contents and the two outputs' at anything; it runs to
    the continuation holding the inputs' as they were and the outputs' at `out5` / `out6` of the inputs'. -/
theorem sound_kernel (c : Dev nD) (E : Set ℕ) (i : grid0.Coords)
    (arg1 : Memref sig .tc .vmem S200x10000 .f32) (harg1 : arg1.IsWhole) (arg2 : Memref sig .tc .vmem S200x10000 .f32) (harg2 : arg2.IsWhole)
    (arg3 : Memref sig .tc .vmem S10000x128 .f32) (harg3 : arg3.IsWhole) (arg4 : Memref sig .tc .vmem S128x128 .f32) (harg4 : arg4.IsWhole)
    (arg5 : Memref sig .tc .vmem S1x128 .f32) (harg5 : arg5.IsWhole) (arg6 : Memref sig .tc .vmem S200x128 .f32) (harg6 : arg6.IsWhole)
    (arg7 : Memref sig .tc .vmem S200x128 .f32) (harg7 : arg7.IsWhole)
    (a0 a1 : Vec F S200x10000 .f32) (x : Vec F S10000x128 .f32) (w : Vec F S128x128 .f32) (b : Vec F S1x128 .f32) (K : PUnit → sProp 𝕄) :
    iprop(owns (c : Thread nD τ) arg1 fullShare a0 ∗ owns (c : Thread nD τ) arg2 fullShare a1 ∗ owns (c : Thread nD τ) arg3 fullShare x
        ∗ owns (c : Thread nD τ) arg4 fullShare w ∗ owns (c : Thread nD τ) arg5 fullShare b
        ∗ (∃ d, owns (c : Thread nD τ) arg6 fullShare d) ∗ (∃ d, owns (c : Thread nD τ) arg7 fullShare d)
        ∗ (iprop(owns (c : Thread nD τ) arg1 fullShare a0 ∗ owns (c : Thread nD τ) arg2 fullShare a1 ∗ owns (c : Thread nD τ) arg3 fullShare x
            ∗ owns (c : Thread nD τ) arg4 fullShare w ∗ owns (c : Thread nD τ) arg5 fullShare b
            ∗ owns (c : Thread nD τ) arg6 fullShare (out5 i a0 x w b) ∗ owns (c : Thread nD τ) arg7 fullShare (out6 i a1 x w b)) -∗ K ⟨⟩))
      ⊢ wp frame (wpE (defs₀ (F := F)) Variants.none c none) E
          (cc0__agg_kernel i arg1 harg1 arg2 harg2 arg3 harg3 arg4 harg4 arg5 harg5 arg6 harg6 arg7 harg7) K := by
  simp only [cc0__agg_kernel_eq_skeleton]; unfold cc0__agg_kernel_skel
  simp only [k0_part1_eq_skeleton]; unfold k0_part1_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf1 hf2 hf3 hf4 hf5
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (coverO _)
  iexists _; isplitr
  swap; · iexact H7
  ipureintro
  exact View.read_writes_eq_canon _ _ _ (coverO _)

end Cert.Kernel.Body

end
-- ==== Proof.DataB.lean ====
/-
  The pipeline's bookkeeping for the aggregation kernel: what every window's staging buffer holds before and after
  the body at each of the 25 grid points.

  The five input windows hold their blocks of the arrays as the region finds them — the two adjacency windows are
  two views of ONE array, each held at half of its share —; the two output windows hold, after the body, the
  body's function of the input blocks, and are written back at every point.
-/
import proofs.«118306_g84293028151720_cont_9to1_m_1401_9_alg».proof.Proof.Gen.Kernel.Launch
import proofs.«118306_g84293028151720_cont_9to1_m_1401_9_alg».proof.Proof.Gen.Kernel.Skeleton
import proofs.«118306_g84293028151720_cont_9to1_m_1401_9_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«118306_g84293028151720_cont_9to1_m_1401_9_alg».proof.Proof.BodyB
set_option maxRecDepth 16384

noncomputable section

namespace Cert.Kernel.Data

open Cert.Kernel.Body
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point, fetched there or not. -/
theorem before0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's staging buffer holds its block at every point, fetched there or not. -/
theorem before1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's staging buffer holds its block at every point, fetched there or not. -/
theorem before2_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's staging buffer holds its block at every point, fetched there or not. -/
theorem before3_of {c : Dev nD} (dat : Dat τ (Elt F) Unit ℕ (UR sig nD τ) ℕ cfg0 c) (hA : dat.A 3 = V c (Pipeline.arrRef spec0 3))
    (hafter : ∀ t, dat.after 3 t = iblk V c 3 t) (t : Fin cfg0.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's staging buffer holds its block at every point, fetched there or not. -/
theorem before4_of {c : Dev nD} (dat : Dat τ (Elt F) Unit ℕ (UR sig nD τ) ℕ cfg0 c) (hA : dat.A 4 = V c (Pipeline.arrRef spec0 4))
    (hafter : ∀ t, dat.after 4 t = iblk V c 4 t) (t : Fin cfg0.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- The proof data on core `c`: the arrays as the region finds them; after the body each input's buffer at its
    block and each output's at the body's function of the input blocks; the two adjacency windows share their
    array, half each. -/
def dat0 (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => out5 (grid0.coords t) (iblk V c 0 t) (iblk V c 2 t) (iblk V c 3 t) (iblk V c 4 t)
    | ⟨6, _⟩ => out6 (grid0.coords t) (iblk V c 1 t) (iblk V c 2 t) (iblk V c 3 t) (iblk V c 4 t)
  Φ _ := Pipeline.ΦA spec0 c
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
  owed _ := 0

theorem A_eq (c : Dev nD) (w : Fin cfg0.W) : (dat0 V c).A w = V c (Pipeline.arrRef spec0 w) := by
  dsimp only [dat0]

theorem after0 (c : Dev nD) (t : Fin cfg0.N) : (dat0 V c).after 0 t = iblk V c 0 t := by dsimp only [dat0]
theorem after1 (c : Dev nD) (t : Fin cfg0.N) : (dat0 V c).after 1 t = iblk V c 1 t := by dsimp only [dat0]
theorem after2 (c : Dev nD) (t : Fin cfg0.N) : (dat0 V c).after 2 t = iblk V c 2 t := by dsimp only [dat0]
theorem after3 (c : Dev nD) (t : Fin cfg0.N) : (dat0 V c).after 3 t = iblk V c 3 t := by dsimp only [dat0]
theorem after4 (c : Dev nD) (t : Fin cfg0.N) : (dat0 V c).after 4 t = iblk V c 4 t := by dsimp only [dat0]
theorem after5 (c : Dev nD) (t : Fin cfg0.N) :
    (dat0 V c).after 5 t = out5 (grid0.coords t) (iblk V c 0 t) (iblk V c 2 t) (iblk V c 3 t) (iblk V c 4 t) := by dsimp only [dat0]
theorem after6 (c : Dev nD) (t : Fin cfg0.N) :
    (dat0 V c).after 6 t = out6 (grid0.coords t) (iblk V c 1 t) (iblk V c 2 t) (iblk V c 3 t) (iblk V c 4 t) := by dsimp only [dat0]

theorem before0 (c : Dev nD) (t : Fin cfg0.N) (d) : (dat0 V c).before 0 t d = iblk V c 0 t :=
  before0_of V (dat0 V c) (A_eq V c 0) (after0 V c) t d
theorem before1 (c : Dev nD) (t : Fin cfg0.N) (d) : (dat0 V c).before 1 t d = iblk V c 1 t :=
  before1_of V (dat0 V c) (A_eq V c 1) (after1 V c) t d
theorem before2 (c : Dev nD) (t : Fin cfg0.N) (d) : (dat0 V c).before 2 t d = iblk V c 2 t :=
  before2_of V (dat0 V c) (A_eq V c 2) (after2 V c) t d
theorem before3 (c : Dev nD) (t : Fin cfg0.N) (d) : (dat0 V c).before 3 t d = iblk V c 3 t :=
  before3_of V (dat0 V c) (A_eq V c 3) (after3 V c) t d
theorem before4 (c : Dev nD) (t : Fin cfg0.N) (d) : (dat0 V c).before 4 t d = iblk V c 4 t :=
  before4_of V (dat0 V c) (A_eq V c 4) (after4 V c) t d

/-! ## The body obligation, at a generic point -/

/-- What the body is called with at point `t`, the windows one by one, -/
def bodyPre (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the inputs' buffers hold their blocks, so the body's triple applies; the invariant and
    what the core owes pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0, before1, before2, before3, before4]
  rw [show (dat0 V c).Φ t.succ = (dat0 V c).Φ t.castSucc from rfl,
    show (dat0 V c).owesAt () t.succ = (dat0 V c).owesAt () t.castSucc from rfl,
    after0, after1, after2, after3, after4, after5, after6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ (grid0.coords t) _ _ _ _ _ _ _ _ _ _ _ _ _ _
    (iblk V c 0 t) (iblk V c 1 t) (iblk V c 2 t) (iblk V c 3 t) (iblk V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation, at every point. -/
theorem body_obligation (c : Dev nD) : BodyObligation (dat0 (F := F) V c) (defs₀ (F := F)) Variants.none () Set.univ := fun t => by
  rw [bigSep_W0, bigSep_W0]
  exact sound_body V c t

end Cert.Kernel.Data

end
-- ==== Proof.RunB.lean ====
/-
  The whole run of the aggregation program: two host operations (the weights transposed, the bias as a one-row
  matrix), the kernel region over its 25 grid points, and one host operation joining the two halves.

  Between these pieces the core holds every unscoped buffer at known contents: the launch contents, then those
  after the two host operations, then — the region having written back only its two result arrays — the same with
  the two halves at what the write-backs leave, then those after the join.  The adjacency matrix is handed to the
  region's two windows half a share each and joined again at the exit.
-/
import proofs.«118306_g84293028151720_cont_9to1_m_1401_9_alg».proof.Proof.Gen.Kernel.Launch
import proofs.«118306_g84293028151720_cont_9to1_m_1401_9_alg».proof.Proof.Gen.Kernel.Skeleton
import proofs.«118306_g84293028151720_cont_9to1_m_1401_9_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«118306_g84293028151720_cont_9to1_m_1401_9_alg».proof.Proof.DataB
set_option maxRecDepth 16384

noncomputable section

namespace Cert.Kernel.Run

open Cert.Kernel.Body Cert.Kernel.Data
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => m (c, b)
/-- After the two host operations before the region. -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- At the region's exit: the two result halves at what the write-backs leave, every other buffer as entered. -/
def W2 (c : Dev nD) : Valuation τ sig (Elt F) :=
  Function.update (Function.update (W1 m c) main_v2_0 ((dat0 (V1 m) c).arrAt 5 cfg0.N)) main_v2_1 ((dat0 (V1 m) c).arrAt 6 cfg0.N)
abbrev V2 : (c : Dev nD) → (b : Ref sig .tc) → Buf (Elt F) ((c : Thread nD τ).loc b) := fun c b => W2 m c b
/-- After the join. -/
abbrev W3 : Dev nD → Valuation τ sig (Elt F) := fun c => StableHlo.after hostOps1 (W2 m c)

theorem W2_v2_1 (c : Dev nD) : W2 m c main_v2_1 = (dat0 (V1 m) c).arrAt 6 cfg0.N := by
  unfold W2; exact Function.update_self ..
theorem W2_v2_0 (c : Dev nD) : W2 m c main_v2_0 = (dat0 (V1 m) c).arrAt 5 cfg0.N := by
  unfold W2
  rw [Function.update_of_ne (StableHlo.devRef_ne_of_ne (by decide) : (Proc.devRef .tc main_v2_0 : DevRef τ sig) ≠ Proc.devRef .tc main_v2_1)]
  exact Function.update_self ..
theorem W2_of_ne (c : Dev nD) (b : Ref sig .tc) (h0 : b ≠ main_v2_0) (h1 : b ≠ main_v2_1) : W2 m c b = W1 m c b := by
  unfold W2
  rw [Function.update_of_ne (StableHlo.devRef_ne_of_ne h1 : (Proc.devRef .tc b : DevRef τ sig) ≠ Proc.devRef .tc main_v2_1),
    Function.update_of_ne (StableHlo.devRef_ne_of_ne h0 : (Proc.devRef .tc b : DevRef τ sig) ≠ Proc.devRef .tc main_v2_0)]

/-! ## The windows' arrays, one by one -/

/-- The distinct buffers behind the seven windows' arrays are six. -/
theorem arrBufs_list (c : Dev nD) (V : (b : Ref sig .tc) → Buf (Elt F) ((c : Thread nD τ).loc b)) :
    (Pipeline.arrBufs (Ix := Unit) (Name := ℕ) (U := UR sig nD τ) (Lvl := ℕ) spec0 c V : sProp 𝕄)
      = iprop((((c : Thread nD τ).loc main_arg1) ↦{fullShare} V main_arg1) ∗ (((c : Thread nD τ).loc main_arg0) ↦{fullShare} V main_arg0)
          ∗ (((c : Thread nD τ).loc main_v0) ↦{fullShare} V main_v0) ∗ (((c : Thread nD τ).loc main_v1) ↦{fullShare} V main_v1)
          ∗ (((c : Thread nD τ).loc main_v2_0) ↦{fullShare} V main_v2_0) ∗ (((c : Thread nD τ).loc main_v2_1) ↦{fullShare} V main_v2_1)) := by
  unfold Pipeline.arrBufs
  exact bigSep_eq_bigSepL_of_eq [main_arg1, main_arg0, main_v0, main_v1, main_v2_0, main_v2_1] (by decide) (by decide) _

/-- The unscoped buffers are those six and the three no window is on. -/
theorem unscoped_split (c : Dev nD) (V : (b : Ref sig .tc) → Buf (Elt F) ((c : Thread nD τ).loc b)) :
    (unscopedBufs (Ix := Unit) (Name := ℕ) (U := UR sig nD τ) (Lvl := ℕ) c V : sProp 𝕄)
      = iprop((Pipeline.arrBufs (Ix := Unit) (Name := ℕ) (U := UR sig nD τ) (Lvl := ℕ) spec0 c V : sProp 𝕄)
          ∗ Pipeline.unscopedRest (Ix := Unit) (Name := ℕ) (U := UR sig nD τ) (Lvl := ℕ) spec0 c V) :=
  Pipeline.unscopedBufs_split₀ cfgs 0 winFacts₀0.arr_unscoped c V

/-- The pipeline's arrays at contents `Fw`, window by window: the adjacency matrix twice, half a share each. -/
theorem arrays_chain (c : Dev nD) (V : (c : Dev nD) → (b : Ref sig .tc) → Buf (Elt F) ((c : Thread nD τ).loc b))
    (Fw : (w : Fin cfg0.W) → Buf (Elt F) ((cfg0.win w).arr.view.loc (c : Thread nD τ))) :
    ((dat0 V c).arrays Fw : sProp 𝕄)
      = iprop((((c : Thread nD τ).loc main_arg1) ↦{fullShare.left} Fw 0) ∗ (((c : Thread nD τ).loc main_arg1) ↦{fullShare.right} Fw 1)
          ∗ (((c : Thread nD τ).loc main_arg0) ↦{fullShare} Fw 2) ∗ (((c : Thread nD τ).loc main_v0) ↦{fullShare} Fw 3)
          ∗ (((c : Thread nD τ).loc main_v1) ↦{fullShare} Fw 4) ∗ (((c : Thread nD τ).loc main_v2_0) ↦{fullShare} Fw 5)
          ∗ (((c : Thread nD τ).loc main_v2_1) ↦{fullShare} Fw 6)) := by
  unfold Dat.arrays
  rw [bigSep_W0]
  rw [(arr_whole0 0).set_eq_univ, (arr_whole0 2).set_eq_univ, (arr_whole0 3).set_eq_univ,
    (arr_whole0 4).set_eq_univ, (arr_whole0 5).set_eq_univ, (arr_whole0 6).set_eq_univ]
  rfl

/-! ## The region's entry and exit -/

/-- ENTRY: every unscoped buffer at the entry contents gives the pipeline's arrays at their entry contents — the
    adjacency matrix's share halved between its two windows — and the three buffers no window is on. -/
theorem entry_split (c : Dev nD) :
    (StableHlo.held (c : Thread nD τ) (Pipeline.ucRefs τ sig) (W1 m c) : sProp 𝕄)
      ⊢ iprop((dat0 (V1 m) c).arrays ((dat0 (V1 m) c).arrAt · 0)
          ∗ Pipeline.unscopedRest (Ix := Unit) (Name := ℕ) (U := UR sig nD τ) (Lvl := ℕ) spec0 c (V1 m c)) := by
  rw [← Pipeline.unscopedBufs_held (Ix := Unit) (Name := ℕ) (U := UR sig nD τ) (Lvl := ℕ) c (W1 m c)]
  rw [unscoped_split c (V1 m c), arrBufs_list, arrays_chain]
  iintro ⟨⟨Ha1, Ha0, Hv0, Hv1, H20, H21⟩, Hr⟩
  ihave Hs := (pointsTo_share (PosShare.mem_left_op_right fullShare)).1 $$ Ha1
  icases Hs with ⟨HL, HR⟩
  isplitr [Hr]
  swap; · iexact Hr
  isplitl [HL]; · iexact HL
  isplitl [HR]; · iexact HR
  isplitl [Ha0]; · iexact Ha0
  isplitl [Hv0]; · iexact Hv0
  isplitl [Hv1]; · iexact Hv1
  isplitl [H20]; · iexact H20
  iexact H21

/-- What each array holds at the exit, in terms of the exit contents. -/
theorem exit_in (c : Dev nD) (w : Fin cfg0.W) (hw : (cfg0.win w).isOut = false) (h0 : Pipeline.arrRef spec0 w ≠ main_v2_0)
    (h1 : Pipeline.arrRef spec0 w ≠ main_v2_1) : (dat0 (V1 m) c).arrAt w cfg0.N = V2 m c (Pipeline.arrRef spec0 w) :=
  ((dat0 (V1 m) c).arrAt_in w hw _).trans ((A_eq (V1 m) c w).trans (W2_of_ne m c _ h0 h1).symm)

/-- EXIT: the arrays at their final contents — the two halves of the adjacency matrix's share joined — and the
    three bypassing buffers are every unscoped buffer at the exit contents. -/
theorem exit_join (c : Dev nD) :
    iprop((dat0 (V1 m) c).arrays ((dat0 (V1 m) c).arrAt · cfg0.N)
        ∗ Pipeline.unscopedRest (Ix := Unit) (Name := ℕ) (U := UR sig nD τ) (Lvl := ℕ) spec0 c (V1 m c))
      ⊢ (StableHlo.held (c : Thread nD τ) (Pipeline.ucRefs τ sig) (W2 m c) : sProp 𝕄) := by
  rw [← Pipeline.unscopedBufs_held (Ix := Unit) (Name := ℕ) (U := UR sig nD τ) (Lvl := ℕ) c (W2 m c)]
  rw [unscoped_split c (V2 m c), arrBufs_list, arrays_chain, unscopedRest0_eq, unscopedRest0_eq]
  have e0 := exit_in m c 0 rfl (by decide) (by decide)
  have e1 := exit_in m c 1 rfl (by decide) (by decide)
  have e2 := exit_in m c 2 rfl (by decide) (by decide)
  have e3 := exit_in m c 3 rfl (by decide) (by decide)
  have e4 := exit_in m c 4 rfl (by decide) (by decide)
  have e5 : (dat0 (V1 m) c).arrAt 5 cfg0.N = V2 m c main_v2_0 := (W2_v2_0 m c).symm
  have e6 : (dat0 (V1 m) c).arrAt 6 cfg0.N = V2 m c main_v2_1 := (W2_v2_1 m c).symm
  have r2 : V2 m c main_arg2 = V1 m c main_arg2 := W2_of_ne m c main_arg2 (by decide) (by decide)
  have r3 : V2 m c main_arg3 = V1 m c main_arg3 := W2_of_ne m c main_arg3 (by decide) (by decide)
  have r8 : V2 m c main_v3 = V1 m c main_v3 := W2_of_ne m c main_v3 (by decide) (by decide)
  rw [e0, e1, e2, e3, e4, e5, e6, r2, r3, r8]
  iintro ⟨⟨HL, HR, Ha0, Hv0, Hv1, H20, H21⟩, Hr⟩
  ihave Ha1 := (pointsTo_share (PosShare.mem_left_op_right fullShare)).2 $$ [HL HR]
  · isplitl [HL]; · iexact HL
    iexact HR
  isplitr [Hr]
  swap; · iexact Hr
  isplitl [Ha1]; · iexact Ha1
  isplitl [Ha0]; · iexact Ha0
  isplitl [Hv0]; · iexact Hv0
  isplitl [Hv1]; · iexact Hv1
  isplitl [H20]; · iexact H20
  iexact H21

/-! ## The proof data family, the thread state and the segments -/

abbrev adm : (p : Fin 1) → (pcfgs (F := F) p).Adm := fun p => (cfgs p).toPCfg_adm
def pdats : (p : Fin 1) → (c : Dev nD) → Dat τ (Elt F) Unit ℕ (UR sig nD τ) ℕ (Pipeline.pin (pcfgs (F := F)) adm p) c
  | ⟨0, _⟩ => fun c => dat0 (V1 m) c
abbrev 𝒱₀ : Variants := Variants.none
abbrev L : GSem nD τ sig → Finset Unit := fun _ => ∅
abbrev lv : GSem nD τ sig → Unit → ℕ := fun _ _ => 0
/-- What rides beside the buffers through every segment: the generator register at some state and the core owing
    nothing. -/
abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m c) ∗ ∃ r, prngReg c r)

set_option backward.isDefEq.respectTransparency.types false in
/-- THE REGION over the thread state: entered from every unscoped buffer at the entry contents, left at the exit
    contents; the generator register into the invariant and out; nothing owed; no semaphore of the kernel's own. -/
def reg0 : Pipeline.RegionSeg (pcfgs (F := F)) adm (pdats m) () defs₀ 𝒱₀ L lv 0 where
  win := winFacts₀0
  block_pos := block_pos0
  stage_whole := stage_whole0
  K := PEmpty
  osem k := k.elim
  ho := Pipeline.OwnSemFacts.none _
  hbody c := (body_obligation (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    iintro ⟨⟨Hub, Hp, HO⟩, -, -⟩
    have he : (StableHlo.held (c : Thread nD τ) (Pipeline.ucRefs τ sig) (W1 m c) : sProp 𝕄)
        ⊢ iprop((pdats m 0 c).arrays ((pdats m 0 c).arrAt · 0)
          ∗ Pipeline.unscopedRest (Ix := Unit) (Name := ℕ) (U := UR sig nD τ) (Lvl := ℕ) spec0 c (V1 m c)) := entry_split m c
    ihave H := he $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    iintro ⟨Ha, HO, HY, Hrest⟩
    imodintro
    isplitl [Ha Hrest]
    · have hj : iprop((pdats m 0 c).arrays ((pdats m 0 c).arrAt · cfg0.N)
          ∗ Pipeline.unscopedRest (Ix := Unit) (Name := ℕ) (U := UR sig nD τ) (Lvl := ℕ) spec0 c (V1 m c))
          ⊢ (StableHlo.held (c : Thread nD τ) (Pipeline.ucRefs τ sig) (W2 m c) : sProp 𝕄) := exit_join m c
      iapply hj
      isplitl [Ha]; · iexact Ha
      iexact Hrest
    isplitl [HY]; · iexact HY
    unfold Pipeline.Dat.owesAt Pipeline.owesWithin
    icases HO with ⟨%W, -, HO⟩; iexists W; iexact HO

/-- The program's three segments in order. -/
abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)) ]
theorem main_run (c : Dev nD) : main (F := F) c = Pipeline.Seg.run (segs m) := (main_chain c).trans (by chain_rfl)

set_option backward.isDefEq.respectTransparency.types false in
/-- THE RUN: from any memory with zero counters every weakly fair execution terminates, nothing faulting, and every
    final state holds each unscoped buffer at the last boundary's contents. -/
theorem run : θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun c => by
      refine (show iprop(StableHlo.held (c : Thread nD τ) (Pipeline.ucRefs τ sig) (W3 m c) ∗ R c)
        ⊢ iprop(Tₙ m c ∗ ∃ W, owes (c : Thread nD τ) (0 : CellTallies nD τ sig Unit) W) from ?_)
      iintro ⟨Hh, Hp, HO⟩
      isplitr [HO]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c => h c)

end Cert.Kernel.Run

end
-- ==== Proof.HostB.lean ====
/-
  The aggregation program's three host operations, read back at the boundaries of its run: before the kernel
  region the weights transposed and the bias as a one-row matrix, after it the two result halves joined along
  the rows.  No host operation writes an argument, and the region's exit leaves every buffer but the two halves
  as entered, so each argument is at its launch contents at every boundary.
-/
import proofs.«118306_g84293028151720_cont_9to1_m_1401_9_alg».proof.Proof.RunB
import Idealize.ShloMosaic.Lib.StableHlo.Run

noncomputable section

namespace Cert.Kernel.HostOps

open Cert.Kernel Cert.Kernel.Gen Cert.Kernel.Run Cert.Kernel.Data
open Idealize.ShloMosaic Idealize.ShloMosaic.TcCoe Idealize.SL.Sem

variable {F : FTy → Type} [FloatOps F]

variable (m : (ℓ : Loc nD τ sig) → Buf (Elt F) ℓ)

/-! ## What the host operations write -/

/-- The two operations before the region write only the transposed weights and the one-row bias. -/
theorem not_written0 (b : Ref sig .tc) (h0 : b ≠ main_v0) (h1 : b ≠ main_v1) :
    ∀ op ∈ (hostOps0 (F := F)), Proc.devRef .tc b ∉ op.writes := by
  intro op hop
  simp only [List.mem_cons, List.mem_nil_iff, or_false] at hop
  rcases hop with rfl | rfl <;>
    simp only [StableHlo.unary_writes, StableHlo.reshape_writes, Finset.mem_singleton] <;>
    exact StableHlo.devRef_ne_of_ne ‹_›

/-- The operation after the region writes only the joined result. -/
theorem not_written1 (b : Ref sig .tc) (h3 : b ≠ main_v3) :
    ∀ op ∈ (hostOps1 (F := F)), Proc.devRef .tc b ∉ op.writes := by
  intro op hop
  simp only [List.mem_cons, List.mem_nil_iff, or_false] at hop
  rcases hop with rfl
  simp only [StableHlo.binary_writes, Finset.mem_singleton]
  exact StableHlo.devRef_ne_of_ne h3

/-- A buffer the first two operations do not write is, at the region's entry, as launched. -/
theorem V1_of_ne (c : Dev nD) (b : Ref sig .tc) (h0 : b ≠ main_v0) (h1 : b ≠ main_v1) :
    V1 m c b = m ((c : Thread nD τ).loc b) :=
  StableHlo.after_of_forall_not_mem (b := Proc.devRef .tc b) hostOps0 (W0 m c) (not_written0 b h0 h1)

/-- A buffer no host operation writes and the region does not write back is, at the end, as launched. -/
theorem W3_of_ne (c : Dev nD) (b : Ref sig .tc) (h0 : b ≠ main_v0) (h1 : b ≠ main_v1) (h20 : b ≠ main_v2_0)
    (h21 : b ≠ main_v2_1) (h3 : b ≠ main_v3) : W3 m c b = m ((c : Thread nD τ).loc b) :=
  (StableHlo.after_of_forall_not_mem (b := Proc.devRef .tc b) hostOps1 (W2 m c) (not_written1 b h3)).trans
    ((W2_of_ne m c b h20 h21).trans (V1_of_ne m c b h0 h1))

/-! ## The arguments at the region's entry -/

theorem V1_arg0 (c : Dev nD) : V1 m c main_arg0 = m ((c : Thread nD τ).loc main_arg0) :=
  V1_of_ne m c main_arg0 (by decide) (by decide)
theorem V1_arg1 (c : Dev nD) : V1 m c main_arg1 = m ((c : Thread nD τ).loc main_arg1) :=
  V1_of_ne m c main_arg1 (by decide) (by decide)
theorem V1_arg2 (c : Dev nD) : V1 m c main_arg2 = m ((c : Thread nD τ).loc main_arg2) :=
  V1_of_ne m c main_arg2 (by decide) (by decide)
theorem V1_arg3 (c : Dev nD) : V1 m c main_arg3 = m ((c : Thread nD τ).loc main_arg3) :=
  V1_of_ne m c main_arg3 (by decide) (by decide)

/-! ## The two values the operations before the region compute -/

/-- The weights' buffer for the region: the weight matrix transposed. -/
theorem V1_v0 (c : Dev nD) :
    (V1 m c main_v0 : S128x128.Idx → Elt F .f32)
      = transpose S128x128 [1, 0] (m ((c : Thread nD τ).loc main_arg2)) transposes_S128x128_S128x128_1_0 := by
  show StableHlo.after hostOps0 (W0 m c) (Proc.devRef .tc main_v0) = _
  after_results

/-- The bias's buffer for the region: the bias as a one-row matrix. -/
theorem V1_v1 (c : Dev nD) :
    (V1 m c main_v1 : S1x128.Idx → Elt F .f32)
      = shapeCast S1x128 (m ((c : Thread nD τ).loc main_arg3)) shapeCasts_S128_S1x128 := by
  show StableHlo.after hostOps0 (W0 m c) (Proc.devRef .tc main_v1) = _
  after_results
  rfl

/-! ## The arguments at the end -/

theorem W3_arg0 (c : Dev nD) : W3 m c main_arg0 = m ((c : Thread nD τ).loc main_arg0) :=
  W3_of_ne m c main_arg0 (by decide) (by decide) (by decide) (by decide) (by decide)
theorem W3_arg1 (c : Dev nD) : W3 m c main_arg1 = m ((c : Thread nD τ).loc main_arg1) :=
  W3_of_ne m c main_arg1 (by decide) (by decide) (by decide) (by decide) (by decide)
theorem W3_arg2 (c : Dev nD) : W3 m c main_arg2 = m ((c : Thread nD τ).loc main_arg2) :=
  W3_of_ne m c main_arg2 (by decide) (by decide) (by decide) (by decide) (by decide)
theorem W3_arg3 (c : Dev nD) : W3 m c main_arg3 = m ((c : Thread nD τ).loc main_arg3) :=
  W3_of_ne m c main_arg3 (by decide) (by decide) (by decide) (by decide) (by decide)

/-! ## The result -/

/-- The result's buffer at the end: the two halves the region wrote back, joined along the rows. -/
theorem W3_v3 (c : Dev nD) :
    (W3 m c main_v3 : S10000x128.Idx → Elt F .f32)
      = concatenate S10000x128 0 [⟨S5000x128, (dat0 (V1 m) c).arrAt 5 cfg0.N⟩, ⟨S5000x128, (dat0 (V1 m) c).arrAt 6 cfg0.N⟩]
          concatenates_S5000x128_S5000x128_S10000x128_d0 := by
  show StableHlo.after hostOps1 (W2 m c) (Proc.devRef .tc main_v3) = _
  after_results
  rw [W2_v2_0, W2_v2_1]

end Cert.Kernel.HostOps

end
-- ==== Proof.BodyI.lean ====
/-
  The body of the aggregation kernel at one grid point, as a statement about memory.

  At grid point i the body is handed two 200 × 10000 slabs of the adjacency matrix (rows 200·i … and rows
  5000 + 200·i …), the whole embedding matrix, the transposed weights and the bias row, each in a staging
  buffer, and two 200 × 128 output buffers.  It reads the slabs, the embedding matrix (whole, and its 200 rows
  at offsets 200·i and 5000 + 200·i), the weights and the bias, and overwrites each output buffer whole with
  one pure function of what it read.  Nothing else is touched.
-/
import proofs.«118306_g84293028151720_cont_9to1_m_1401_9_alg».proof.Proof.Gen.KernelIdeal.Launch
import proofs.«118306_g84293028151720_cont_9to1_m_1401_9_alg».proof.Proof.Gen.KernelIdeal.Skeleton
import proofs.«118306_g84293028151720_cont_9to1_m_1401_9_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The rectangles the body reads and writes -/

abbrev rA : Rect S200x10000 := Rect.unit (s := S200x10000) ![0, 0] S200x10000.size inb_S200x10000_S200x10000_0_0
abbrev rX : Rect S10000x128 := Rect.unit (s := S10000x128) ![0, 0] S10000x128.size inb_S10000x128_S10000x128_0_0
abbrev rW : Rect S128x128 := Rect.unit (s := S128x128) ![0, 0] S128x128.size inb_S128x128_S128x128_0_0
abbrev rB : Rect S1x128 := Rect.unit (s := S1x128) ![0, 0] S1x128.size inb_S1x128_S1x128_0_0
abbrev rO : Rect S200x128 := Rect.unit (s := S200x128) ![0, 0] S200x128.size inb_S200x128_S200x128_0_0
/-- The 200 own rows of half `h` at grid point `i`: rows 5000·h + 200·i … of the embedding matrix. -/
abbrev rOwn (i : grid0.Coords) (h : Fin 2) : Rect S10000x128 :=
  Rect.unit (s := S10000x128) (k0_off1 i (BitVec.ofNat 32 (5000 * h.val))) S200x128.size (k0_off1_inb i h)

/-! ## What the body leaves in each output buffer -/

/-- The first half's output buffer after the body. -/
def out5 (i : grid0.Coords) (a : Vec F S200x10000 .f32) (x : Vec F S10000x128 .f32) (w : Vec F S128x128 .f32) (b : Vec F S1x128 .f32) :
    Vec F S200x128 .f32 :=
  View.canon [⟨rO, k0_pay2 (View.ld a rA) (View.ld x rX) (View.ld x (rOwn i 0)) (View.ld w rW) (View.ld b rB)⟩]

/-- The second half's output buffer after the body. -/
def out6 (i : grid0.Coords) (a : Vec F S200x10000 .f32) (x : Vec F S10000x128 .f32) (w : Vec F S128x128 .f32) (b : Vec F S1x128 .f32) :
    Vec F S200x128 .f32 :=
  View.canon [⟨rO, k0_pay1 (k0_pay3 (View.ld a rA) (View.ld x rX) (View.ld x (rOwn i 1))) (k0_pay4 (View.ld w rW)) (View.ld b rB)⟩]

/-- One whole-buffer store covers the buffer. -/
theorem coverO (p0 : Vec F S200x128 .f32) (y : S200x128.Idx) :
    ∃ pc ∈ ([⟨rO, p0⟩] : List (View.Piece (Elt F) S200x128 .f32)), y ∈ pc.1.set :=
  View.cover_of_tiled [⟨rO, p0⟩] S200x128.size (by rfl) y

/-! ## The body's triple -/

set_option maxHeartbeats 2000000 in
/-- The body on whole staging memrefs: the five inputs' at read contents and the two outputs' at anything; it runs to
    the continuation holding the inputs' as they were and the outputs' at `out5` / `out6` of the inputs'. -/
theorem sound_kernel (c : Dev nD) (E : Set ℕ) (i : grid0.Coords)
    (arg1 : Memref sig .tc .vmem S200x10000 .f32) (harg1 : arg1.IsWhole) (arg2 : Memref sig .tc .vmem S200x10000 .f32) (harg2 : arg2.IsWhole)
    (arg3 : Memref sig .tc .vmem S10000x128 .f32) (harg3 : arg3.IsWhole) (arg4 : Memref sig .tc .vmem S128x128 .f32) (harg4 : arg4.IsWhole)
    (arg5 : Memref sig .tc .vmem S1x128 .f32) (harg5 : arg5.IsWhole) (arg6 : Memref sig .tc .vmem S200x128 .f32) (harg6 : arg6.IsWhole)
    (arg7 : Memref sig .tc .vmem S200x128 .f32) (harg7 : arg7.IsWhole)
    (a0 a1 : Vec F S200x10000 .f32) (x : Vec F S10000x128 .f32) (w : Vec F S128x128 .f32) (b : Vec F S1x128 .f32) (K : PUnit → sProp 𝕄) :
    iprop(owns (c : Thread nD τ) arg1 fullShare a0 ∗ owns (c : Thread nD τ) arg2 fullShare a1 ∗ owns (c : Thread nD τ) arg3 fullShare x
        ∗ owns (c : Thread nD τ) arg4 fullShare w ∗ owns (c : Thread nD τ) arg5 fullShare b
        ∗ (∃ d, owns (c : Thread nD τ) arg6 fullShare d) ∗ (∃ d, owns (c : Thread nD τ) arg7 fullShare d)
        ∗ (iprop(owns (c : Thread nD τ) arg1 fullShare a0 ∗ owns (c : Thread nD τ) arg2 fullShare a1 ∗ owns (c : Thread nD τ) arg3 fullShare x
            ∗ owns (c : Thread nD τ) arg4 fullShare w ∗ owns (c : Thread nD τ) arg5 fullShare b
            ∗ owns (c : Thread nD τ) arg6 fullShare (out5 i a0 x w b) ∗ owns (c : Thread nD τ) arg7 fullShare (out6 i a1 x w b)) -∗ K ⟨⟩))
      ⊢ wp frame (wpE (defs₀ (F := F)) Variants.none c none) E
          (cc0__agg_kernel i arg1 harg1 arg2 harg2 arg3 harg3 arg4 harg4 arg5 harg5 arg6 harg6 arg7 harg7) K := by
  simp only [cc0__agg_kernel_eq_skeleton]; unfold cc0__agg_kernel_skel
  simp only [k0_part1_eq_skeleton]; unfold k0_part1_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf1 hf2 hf3 hf4 hf5
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (coverO _)
  iexists _; isplitr
  swap; · iexact H7
  ipureintro
  exact View.read_writes_eq_canon _ _ _ (coverO _)

end Cert.KernelIdeal.Body

end
-- ==== Proof.DataI.lean ====
/-
  The pipeline's bookkeeping for the aggregation kernel: what every window's staging buffer holds before and after
  the body at each of the 25 grid points.

  The five input windows hold their blocks of the arrays as the region finds them — the two adjacency windows are
  two views of ONE array, each held at half of its share —; the two output windows hold, after the body, the
  body's function of the input blocks, and are written back at every point.
-/
import proofs.«118306_g84293028151720_cont_9to1_m_1401_9_alg».proof.Proof.Gen.KernelIdeal.Launch
import proofs.«118306_g84293028151720_cont_9to1_m_1401_9_alg».proof.Proof.Gen.KernelIdeal.Skeleton
import proofs.«118306_g84293028151720_cont_9to1_m_1401_9_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«118306_g84293028151720_cont_9to1_m_1401_9_alg».proof.Proof.BodyI
set_option maxRecDepth 16384

noncomputable section

namespace Cert.KernelIdeal.Data

open Cert.KernelIdeal.Body
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point, fetched there or not. -/
theorem before0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's staging buffer holds its block at every point, fetched there or not. -/
theorem before1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's staging buffer holds its block at every point, fetched there or not. -/
theorem before2_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's staging buffer holds its block at every point, fetched there or not. -/
theorem before3_of {c : Dev nD} (dat : Dat τ (Elt F) Unit ℕ (UR sig nD τ) ℕ cfg0 c) (hA : dat.A 3 = V c (Pipeline.arrRef spec0 3))
    (hafter : ∀ t, dat.after 3 t = iblk V c 3 t) (t : Fin cfg0.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's staging buffer holds its block at every point, fetched there or not. -/
theorem before4_of {c : Dev nD} (dat : Dat τ (Elt F) Unit ℕ (UR sig nD τ) ℕ cfg0 c) (hA : dat.A 4 = V c (Pipeline.arrRef spec0 4))
    (hafter : ∀ t, dat.after 4 t = iblk V c 4 t) (t : Fin cfg0.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- The proof data on core `c`: the arrays as the region finds them; after the body each input's buffer at its
    block and each output's at the body's function of the input blocks; the two adjacency windows share their
    array, half each. -/
def dat0 (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => out5 (grid0.coords t) (iblk V c 0 t) (iblk V c 2 t) (iblk V c 3 t) (iblk V c 4 t)
    | ⟨6, _⟩ => out6 (grid0.coords t) (iblk V c 1 t) (iblk V c 2 t) (iblk V c 3 t) (iblk V c 4 t)
  Φ _ := Pipeline.ΦA spec0 c
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
  owed _ := 0

theorem A_eq (c : Dev nD) (w : Fin cfg0.W) : (dat0 V c).A w = V c (Pipeline.arrRef spec0 w) := by
  dsimp only [dat0]

theorem after0 (c : Dev nD) (t : Fin cfg0.N) : (dat0 V c).after 0 t = iblk V c 0 t := by dsimp only [dat0]
theorem after1 (c : Dev nD) (t : Fin cfg0.N) : (dat0 V c).after 1 t = iblk V c 1 t := by dsimp only [dat0]
theorem after2 (c : Dev nD) (t : Fin cfg0.N) : (dat0 V c).after 2 t = iblk V c 2 t := by dsimp only [dat0]
theorem after3 (c : Dev nD) (t : Fin cfg0.N) : (dat0 V c).after 3 t = iblk V c 3 t := by dsimp only [dat0]
theorem after4 (c : Dev nD) (t : Fin cfg0.N) : (dat0 V c).after 4 t = iblk V c 4 t := by dsimp only [dat0]
theorem after5 (c : Dev nD) (t : Fin cfg0.N) :
    (dat0 V c).after 5 t = out5 (grid0.coords t) (iblk V c 0 t) (iblk V c 2 t) (iblk V c 3 t) (iblk V c 4 t) := by dsimp only [dat0]
theorem after6 (c : Dev nD) (t : Fin cfg0.N) :
    (dat0 V c).after 6 t = out6 (grid0.coords t) (iblk V c 1 t) (iblk V c 2 t) (iblk V c 3 t) (iblk V c 4 t) := by dsimp only [dat0]

theorem before0 (c : Dev nD) (t : Fin cfg0.N) (d) : (dat0 V c).before 0 t d = iblk V c 0 t :=
  before0_of V (dat0 V c) (A_eq V c 0) (after0 V c) t d
theorem before1 (c : Dev nD) (t : Fin cfg0.N) (d) : (dat0 V c).before 1 t d = iblk V c 1 t :=
  before1_of V (dat0 V c) (A_eq V c 1) (after1 V c) t d
theorem before2 (c : Dev nD) (t : Fin cfg0.N) (d) : (dat0 V c).before 2 t d = iblk V c 2 t :=
  before2_of V (dat0 V c) (A_eq V c 2) (after2 V c) t d
theorem before3 (c : Dev nD) (t : Fin cfg0.N) (d) : (dat0 V c).before 3 t d = iblk V c 3 t :=
  before3_of V (dat0 V c) (A_eq V c 3) (after3 V c) t d
theorem before4 (c : Dev nD) (t : Fin cfg0.N) (d) : (dat0 V c).before 4 t d = iblk V c 4 t :=
  before4_of V (dat0 V c) (A_eq V c 4) (after4 V c) t d

/-! ## The body obligation, at a generic point -/

/-- What the body is called with at point `t`, the windows one by one, -/
def bodyPre (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the inputs' buffers hold their blocks, so the body's triple applies; the invariant and
    what the core owes pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0, before1, before2, before3, before4]
  rw [show (dat0 V c).Φ t.succ = (dat0 V c).Φ t.castSucc from rfl,
    show (dat0 V c).owesAt () t.succ = (dat0 V c).owesAt () t.castSucc from rfl,
    after0, after1, after2, after3, after4, after5, after6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ (grid0.coords t) _ _ _ _ _ _ _ _ _ _ _ _ _ _
    (iblk V c 0 t) (iblk V c 1 t) (iblk V c 2 t) (iblk V c 3 t) (iblk V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation, at every point. -/
theorem body_obligation (c : Dev nD) : BodyObligation (dat0 (F := F) V c) (defs₀ (F := F)) Variants.none () Set.univ := fun t => by
  rw [bigSep_W0, bigSep_W0]
  exact sound_body V c t

end Cert.KernelIdeal.Data

end
-- ==== Proof.Spec.lean ====
/-
  What both programs compute, as one function of the four argument arrays over the extended reals.

  With x the node-embedding matrix (10000 × 128), A the adjacency matrix (10000 × 10000), W the weight
  matrix (128 × 128) and b the bias (128):

      agg r d   = x r d + ∑ k, A r k · x k d                 (the node's own row plus its neighbours' sum)
      lin r j   = (∑ d, agg r d · W j d) + b j                (a linear layer: the product with Wᵀ, plus the bias)
      out r j   = lin r j  if lin r j ≥ 0,  else  c · lin r j  (leaky ReLU; c the binary32 word nearest 1/100)

  The sums are finite sums in the commutative monoid of the extended reals, so neither their order nor the way
  the rows or the columns are tiled matters.
-/
import Idealize.ShloMosaic.PureOps.Ideal
import Idealize.ShloMosaic.PureOps.Ideal.Laws
import Idealize.ShloMosaic.Lib.ValueIdx

noncomputable section

namespace Cert.Agg

open Idealize.ShloMosaic Idealize.ShloMosaic.ValueIdx

abbrev SX : Shape := ⟨2, ![10000, 128]⟩
abbrev SA : Shape := ⟨2, ![10000, 10000]⟩
abbrev SW : Shape := ⟨2, ![128, 128]⟩
abbrev SB : Shape := ⟨1, ![128]⟩

/-- Leaky ReLU on the extended reals, spelt as both programs spell it: a comparison word choosing between the
    value and the value scaled by the binary32 constant nearest 1/100. -/
def leaky (z : EReal) : EReal :=
  Scalar.select (FloatOps.cmpf (F := Ideal) (φ := .f32) .oge z (Ideal.ofBits .f32 0x00000000#32)) z
    (Ideal.ofBits .f32 0x3C23D70A#32 * z)

/-- A node's own embedding plus the adjacency-weighted sum of all embeddings, at row `r`, column `d`. -/
def agg (x : FVec Ideal SX .f32) (A : FVec Ideal SA .f32) (r : Fin 10000) (d : Fin 128) : EReal :=
  x (ix2 r d) + ∑ k : Fin 10000, A (ix2 r k) * x (ix2 k d)

/-- The linear layer on the aggregated row: the product with the transposed weights plus the bias. -/
def lin (x : FVec Ideal SX .f32) (A : FVec Ideal SA .f32) (W : FVec Ideal SW .f32) (b : FVec Ideal SB .f32)
    (r : Fin 10000) (j : Fin 128) : EReal :=
  (∑ d : Fin 128, agg x A r d * W (ix2 j d)) + b (ix1 j)

/-- The result array of both programs. -/
def G (x : FVec Ideal SX .f32) (A : FVec Ideal SA .f32) (W : FVec Ideal SW .f32) (b : FVec Ideal SB .f32) :
    FVec Ideal SX .f32 :=
  fun i => leaky (lin x A W b (i 0) (i 1))

theorem G_apply (x : FVec Ideal SX .f32) (A : FVec Ideal SA .f32) (W : FVec Ideal SW .f32) (b : FVec Ideal SB .f32)
    (r : Fin 10000) (j : Fin 128) : G x A W b (ix2 r j) = leaky (lin x A W b r j) := rfl

end Cert.Agg

end
-- ==== Proof.LibRows.lean ====
/-
  A row vector laid along the rows of a matrix, in the two spellings a kernel and a host program give it.

  A vector `x` of `n` entries becomes the one-row matrix `y` with `y (0, j) = x j` either by a reshape or by a
  broadcast along axis 1: the two are one function (`shapeCast_row_eq_broadcastInDim`).  A one-row matrix `y` is laid
  down `m` rows, `(r, j) ↦ y (0, j)`, either by a broadcast of the vector (preceded by a cast of the one-row matrix to
  its own shape) or by a broadcast along both axes: again one function (`broadcastTo_oneRow_eq_broadcastInDim`).
-/
import Idealize.ShloMosaic.Lib.Pipeline.Value
import Idealize.ShloMosaic.Lib.ValueIdx
import Idealize.ShloMosaic.Lib.KernelVsHost

namespace Cert.LibRows

open Idealize.ShloMosaic Idealize.ShloMosaic.ValueIdx

variable {α : Type}

/-- A vector read as a one-row matrix: the reshape `[n] → [1, n]` and the broadcast along axis 1 both put entry `j`
    at `(0, j)`. -/
theorem shapeCast_row_eq_broadcastInDim {n : Nat} (x : (⟨1, ![n]⟩ : Shape).Idx → α)
    (h1 : (⟨1, ![n]⟩ : Shape).ShapeCasts ⟨2, ![1, n]⟩)
    (hd : (⟨1, ![n]⟩ : Shape).BroadcastsInDim ⟨2, ![1, n]⟩ ![1]) :
    shapeCast ⟨2, ![1, n]⟩ x h1 = broadcastInDim ⟨2, ![1, n]⟩ ![1] hd x := by
  funext i
  have h0 : (i 0).val < 1 := (i 0).isLt
  have e2 := shapeCast_apply x h1 i (ix1 (i 1 : Fin n)) (by
    rw [Shape.rowMajor_val_two, Shape.rowMajor_val_one]
    show (i 1).val = (i 0).val * n + (i 1).val
    have : (i 0).val = 0 := by omega
    rw [this]; omega)
  have e3 := broadcastInDim_apply ![1] hd x i (ix1 (i 1 : Fin n)) (by
    intro a
    match a with
    | ⟨0, _⟩ =>
      show (i 1).val = if n = 1 then 0 else (i 1).val
      split
      · have e : (i 1).val < n := (i 1).isLt; omega
      · rfl)
  exact e2.trans e3.symm

/-- The kernel's broadcast of a one-row matrix (cast to its own shape first) down `m` rows, read at `(r, j)`: the
    row's entry `(0, j)`. -/
theorem broadcastTo_oneRow_apply {m n : Nat} (y : (⟨2, ![1, n]⟩ : Shape).Idx → α)
    (hs : (⟨2, ![1, n]⟩ : Shape).ShapeCasts ⟨2, ![1, n]⟩)
    (hb : (⟨2, ![1, n]⟩ : Shape).Broadcasts ⟨2, ![m, n]⟩) (p : Fin m) (q : Fin n) :
    broadcastTo ⟨2, ![m, n]⟩ (shapeCast ⟨2, ![1, n]⟩ y hs) hb (ix2 p q) = y (ix2 (0 : Fin 1) q) := by
  rw [shapeCast_self]
  refine broadcastTo_apply y hb _ (ix2 (0 : Fin 1) q) ?_
  intro a
  match a with
  | ⟨0, _⟩ => rfl
  | ⟨1, _⟩ =>
    show q.val = if n = 1 then 0 else q.val
    split
    · have e : q.val < n := q.isLt; omega
    · rfl

/-- A one-row matrix laid down `m` rows: the kernel's broadcast of its same-shape cast is the host's broadcast along
    both axes; at `(r, j)` both read `y (0, j)`. -/
theorem broadcastTo_oneRow_eq_broadcastInDim {m n : Nat} (y : (⟨2, ![1, n]⟩ : Shape).Idx → α)
    (hs : (⟨2, ![1, n]⟩ : Shape).ShapeCasts ⟨2, ![1, n]⟩)
    (hb : (⟨2, ![1, n]⟩ : Shape).Broadcasts ⟨2, ![m, n]⟩)
    (hd : (⟨2, ![1, n]⟩ : Shape).BroadcastsInDim ⟨2, ![m, n]⟩ ![0, 1]) :
    broadcastTo ⟨2, ![m, n]⟩ (shapeCast ⟨2, ![1, n]⟩ y hs) hb = broadcastInDim ⟨2, ![m, n]⟩ ![0, 1] hd y := by
  funext i
  obtain ⟨p, q, rfl⟩ : ∃ (p : Fin m) (q : Fin n), i = ix2 p q := ⟨i 0, i 1, eq_ix2 i⟩
  rw [broadcastInDim_oneRow_apply, broadcastTo_oneRow_apply]

end Cert.LibRows
-- ==== Proof.PayValue.lean ====
/-
  The kernel body's arithmetic read at one element, over variables.

  Each half of the body computes, for a block `A'` of 200 rows of the adjacency matrix, the whole embedding matrix `x`,
  the block's own 200 rows `x'` of `x`, a 128 × 128 matrix `V` and a one-row matrix `c`:

      out p j = leaky ((∑ d, (x' p d + ∑ k, A' p k · x k d) · V d j) + c 0 j)

  A matrix product into a zero accumulator read at `(p, d)` is the sum over the one contracted axis of the operands'
  products (`matmul_big_apply`, `matmul_small_apply`); the bias row is laid down the 200 rows; the remaining operations
  act element by element.  Below them, three layout operations of the host side read at an index: a transposition,
  a vector read as a one-row matrix, and two row blocks laid one after the other.
-/
import proofs.«118306_g84293028151720_cont_9to1_m_1401_9_alg».proof.Proof.Gen.KernelIdeal.Skeleton
import proofs.«118306_g84293028151720_cont_9to1_m_1401_9_alg».proof.Proof.Spec
import proofs.«118306_g84293028151720_cont_9to1_m_1401_9_alg».proof.Proof.LibRows
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.PayValue

open Cert.KernelIdeal Cert.KernelIdeal.Gen Idealize.ShloMosaic Idealize.ShloMosaic.ValueIdx Cert.Agg

/-- The 200 × 10000 by 10000 × 128 product's left operand index at output `(p, d)` and contraction coordinate `k`
    is `(p, k)`. -/
theorem lhsIdx_big (p : Fin 200) (d : Fin 128) (k : Fin 10000) :
    dot_S200x10000_S10000x128_S200x128_1_0_0_1_n_n.lhsIdx (ix2 p d)
      ((contrEquiv1 dot_S200x10000_S10000x128_S200x128_1_0_0_1_n_n 10000 rfl rfl).symm k) = ix2 p k := by
  funext a
  refine Fin.ext ?_
  match a with
  | ⟨0, _⟩ => rfl
  | ⟨1, _⟩ =>
    exact (DotDims.lhsIdx_val_of_single _ (cl := (1 : Fin 2)) rfl _ _).trans
      (contrEquiv1_symm_val dot_S200x10000_S10000x128_S200x128_1_0_0_1_n_n 10000 rfl rfl k)

/-- Its right operand index there is `(k, d)`. -/
theorem rhsIdx_big (p : Fin 200) (d : Fin 128) (k : Fin 10000) :
    dot_S200x10000_S10000x128_S200x128_1_0_0_1_n_n.rhsIdx (ix2 p d)
      ((contrEquiv1 dot_S200x10000_S10000x128_S200x128_1_0_0_1_n_n 10000 rfl rfl).symm k) = ix2 k d := by
  funext a
  refine Fin.ext ?_
  match a with
  | ⟨1, _⟩ => rfl
  | ⟨0, _⟩ =>
    exact (DotDims.rhsIdx_val_of_single _ (cr := (0 : Fin 2)) rfl _ _).trans
      (contrEquiv1_symm_val dot_S200x10000_S10000x128_S200x128_1_0_0_1_n_n 10000 rfl rfl k)

/-- The 200 × 10000 by 10000 × 128 product into the zero accumulator, at `(p, d)`: `∑ k, a p k · b k d`. -/
theorem matmul_big_apply (a : FVec Ideal S200x10000 .f32) (b : FVec Ideal S10000x128 .f32) (p : Fin 200) (d : Fin 128) :
    matmul dot_S200x10000_S10000x128_S200x128_1_0_0_1_n_n none a b (constant (F := Ideal) S200x128 .f32 0x00000000#32) (ix2 p d)
      = ∑ k : Fin 10000, a (ix2 p k) * b (ix2 k d) := by
  refine (Ideal.matmul_constant_zero_apply _ none a b (ix2 p d)).trans ?_
  rw [← Equiv.sum_comp (contrEquiv1 dot_S200x10000_S10000x128_S200x128_1_0_0_1_n_n 10000 rfl rfl).symm]
  refine Finset.sum_congr rfl fun k _ => ?_
  rw [lhsIdx_big, rhsIdx_big]

/-- The 200 × 128 by 128 × 128 product's left operand index at output `(p, j)` and contraction coordinate `d` is
    `(p, d)`. -/
theorem lhsIdx_small (p : Fin 200) (j : Fin 128) (d : Fin 128) :
    dot_S200x128_S128x128_S200x128_1_0_0_1_n_n.lhsIdx (ix2 p j)
      ((contrEquiv1 dot_S200x128_S128x128_S200x128_1_0_0_1_n_n 128 rfl rfl).symm d) = ix2 p d := by
  funext a
  refine Fin.ext ?_
  match a with
  | ⟨0, _⟩ => rfl
  | ⟨1, _⟩ =>
    exact (DotDims.lhsIdx_val_of_single _ (cl := (1 : Fin 2)) rfl _ _).trans
      (contrEquiv1_symm_val dot_S200x128_S128x128_S200x128_1_0_0_1_n_n 128 rfl rfl d)

/-- Its right operand index there is `(d, j)`. -/
theorem rhsIdx_small (p : Fin 200) (j : Fin 128) (d : Fin 128) :
    dot_S200x128_S128x128_S200x128_1_0_0_1_n_n.rhsIdx (ix2 p j)
      ((contrEquiv1 dot_S200x128_S128x128_S200x128_1_0_0_1_n_n 128 rfl rfl).symm d) = ix2 d j := by
  funext a
  refine Fin.ext ?_
  match a with
  | ⟨1, _⟩ => rfl
  | ⟨0, _⟩ =>
    exact (DotDims.rhsIdx_val_of_single _ (cr := (0 : Fin 2)) rfl _ _).trans
      (contrEquiv1_symm_val dot_S200x128_S128x128_S200x128_1_0_0_1_n_n 128 rfl rfl d)

/-- The 200 × 128 by 128 × 128 product into the zero accumulator, at `(p, j)`: `∑ d, a p d · b d j`. -/
theorem matmul_small_apply (a : FVec Ideal S200x128 .f32) (b : FVec Ideal S128x128 .f32) (p : Fin 200) (j : Fin 128) :
    matmul dot_S200x128_S128x128_S200x128_1_0_0_1_n_n none a b (constant (F := Ideal) S200x128 .f32 0x00000000#32) (ix2 p j)
      = ∑ d : Fin 128, a (ix2 p d) * b (ix2 d j) := by
  refine (Ideal.matmul_constant_zero_apply _ none a b (ix2 p j)).trans ?_
  rw [← Equiv.sum_comp (contrEquiv1 dot_S200x128_S128x128_S200x128_1_0_0_1_n_n 128 rfl rfl).symm]
  refine Finset.sum_congr rfl fun d _ => ?_
  rw [lhsIdx_small, rhsIdx_small]

/-- The first half's stored value at `(p, j)`: the leaky ReLU of the aggregated row times the matrix plus the bias row. -/
theorem pay2_apply (v0 : Vec Ideal S200x10000 .f32) (v1 : Vec Ideal S10000x128 .f32) (v6 : Vec Ideal S200x128 .f32)
    (v8 : Vec Ideal S128x128 .f32) (v11 : Vec Ideal S1x128 .f32) (p : Fin 200) (j : Fin 128) :
    k0_pay2 (F := Ideal) v0 v1 v6 v8 v11 (ix2 p j)
      = leaky ((∑ d : Fin 128, (v6 (ix2 p d) + ∑ k : Fin 10000, v0 (ix2 p k) * v1 (ix2 k d)) * v8 (ix2 d j))
          + v11 (ix2 (0 : Fin 1) j)) := by
  unfold k0_pay2
  simp only [select_apply, cmpf_apply, mulf_apply, addf_apply, broadcast_apply]
  rw [Cert.LibRows.broadcastTo_oneRow_apply, shapeCast_self, matmul_small_apply]
  simp only [addf_apply, matmul_big_apply]
  rfl

/-- The second half's stored value at `(p, j)`, over the second half's aggregated rows and its (same-shape cast)
    matrix: the same expression. -/
theorem pay1_apply (v21 : Vec Ideal S200x10000 .f32) (v22 : Vec Ideal S10000x128 .f32) (v27 : Vec Ideal S200x128 .f32)
    (v29 : Vec Ideal S128x128 .f32) (v32 : Vec Ideal S1x128 .f32) (p : Fin 200) (j : Fin 128) :
    k0_pay1 (F := Ideal) (k0_pay3 (F := Ideal) v21 v22 v27) (k0_pay4 (F := Ideal) v29) v32 (ix2 p j)
      = leaky ((∑ d : Fin 128, (v27 (ix2 p d) + ∑ k : Fin 10000, v21 (ix2 p k) * v22 (ix2 k d)) * v29 (ix2 d j))
          + v32 (ix2 (0 : Fin 1) j)) := by
  unfold k0_pay1 k0_pay3 k0_pay4
  simp only [select_apply, cmpf_apply, mulf_apply, addf_apply, broadcast_apply]
  rw [Cert.LibRows.broadcastTo_oneRow_apply, shapeCast_self, matmul_small_apply]
  simp only [addf_apply, matmul_big_apply]
  rfl

/-- The transposed 128 × 128 matrix at `(d, j)` is the matrix at `(j, d)`. -/
theorem transpose_apply' (W : FVec Ideal S128x128 .f32) (d j : Fin 128) :
    transpose S128x128 [1, 0] W transposes_S128x128_S128x128_1_0 (ix2 d j) = W (ix2 j d) := by
  refine transpose_apply [1, 0] W transposes_S128x128_S128x128_1_0 (ix2 d j) (ix2 j d) ?_
  intro b
  match b with
  | ⟨0, _⟩ => rfl
  | ⟨1, _⟩ => rfl

/-- A vector of 128 entries read as a one-row matrix has entry `j` at `(0, j)`. -/
theorem reshape_row_apply (b : FVec Ideal S128 .f32) (j : Fin 128) :
    shapeCast S1x128 b shapeCasts_S128_S1x128 (ix2 (0 : Fin 1) j) = b (ix1 j) := by
  refine shapeCast_apply b shapeCasts_S128_S1x128 (ix2 (0 : Fin 1) j) (ix1 j) ?_
  rw [Shape.rowMajor_val_two, Shape.rowMajor_val_one]
  show j.val = (0 : Fin 1).val * 128 + j.val
  simp

/-- Two blocks of 5000 rows laid one after the other along the rows: row `r` is the first block's row `r` below
    5000, and the second block's row `r − 5000` from there on. -/
theorem concat_rows_apply (a b : FVec Ideal S5000x128 .f32) (r : Fin 10000) (j : Fin 128) :
    concatenate S10000x128 0 [⟨S5000x128, a⟩, ⟨S5000x128, b⟩] concatenates_S5000x128_S5000x128_S10000x128_d0 (ix2 r j)
      = if h : r.val < 5000 then a (ix2 ⟨r.val, h⟩ j) else b (ix2 ⟨r.val - 5000, by omega⟩ j) := by
  by_cases h : r.val < 5000
  · rw [dif_pos h]
    refine concatenate_pair_apply_left 0 a b concatenates_S5000x128_S5000x128_S10000x128_d0 (ix2 r j) rfl
      (ix2 ⟨r.val, h⟩ j) ?_
    intro c
    match c with
    | ⟨0, _⟩ => rfl
    | ⟨1, _⟩ => rfl
  · rw [dif_neg h]
    refine concatenate_pair_apply_right 0 a b concatenates_S5000x128_S5000x128_S10000x128_d0 (ix2 r j) rfl rfl
      (ix2 ⟨r.val - 5000, by omega⟩ j) ?_ ?_
    · intro c hc
      match c, hc with
      | ⟨0, _⟩, hc => exact absurd rfl hc
      | ⟨1, _⟩, _ => rfl
    · show r.val - 5000 + 5000 = r.val
      omega

end Cert.KernelIdeal.PayValue

end
-- ==== Proof.ValueI.lean ====
/-
  The kernel's two result arrays after the run, each as ONE function of the arrays the region finds.

  At grid point t (of 25) the body is handed rows 200 t … of the adjacency matrix A (first half) and rows
  5000 + 200 t … (second half), the whole embedding matrix x, the transposed weights V and the bias row c, and leaves
  in its two 200 × 128 output buffers, at (p, j),

      leaky ((∑ d, (x r d + ∑ k, A r k · x k d) · V d j) + c 0 j),      r = 5000 h + 200 t + p,

  h = 0, 1 the half.  Point t's buffers are written back as block row t of the two 5000 × 128 result arrays, and the 25
  block rows cover each array; so result array h ends holding that expression at every (r', j), with r = 5000 h + r'.
-/
import proofs.«118306_g84293028151720_cont_9to1_m_1401_9_alg».proof.Proof.DataI
import proofs.«118306_g84293028151720_cont_9to1_m_1401_9_alg».proof.Proof.PayValue
import Idealize.ShloMosaic.Lib.Pipeline.Value

set_option maxRecDepth 16384

noncomputable section

namespace Cert.KernelIdeal.Value

open Cert.KernelIdeal Cert.KernelIdeal.Gen Cert.KernelIdeal.Body Cert.KernelIdeal.Data Cert.KernelIdeal.PayValue
open Idealize.ShloMosaic Idealize.ShloMosaic.TcCoe Idealize.SL.Sem Idealize.ShloMosaic.ValueIdx Cert.Agg
open Idealize.ShloMosaic.Pipeline (Dat)

variable (V : (c : Dev nD) → (b : Ref sig .tc) → Buf (Elt Ideal) ((c : Thread nD τ).loc b))

/-- The zero offsets, however they are spelt. -/
theorem hz : (![0, 0] : Fin 2 → Nat) = fun _ => 0 := funext fun a => by fin_cases a <;> rfl

/-- The four arrays the region finds, as functions of literal index types. -/
abbrev arrX (c : Dev nD) : S10000x128.Idx → EReal := V c main_arg0
abbrev arrA (c : Dev nD) : S10000x10000.Idx → EReal := V c main_arg1
abbrev arrW (c : Dev nD) : S128x128.Idx → EReal := V c main_v0
abbrev arrB (c : Dev nD) : S1x128.Idx → EReal := V c main_v1

/-- Row `5000 h + r` of the 10000, for a row `r` of a half. -/
abbrev rowOf (h : Fin 2) (r : Fin 5000) : Fin 10000 := ⟨5000 * h.val + r.val, by have := r.isLt; have := h.isLt; omega⟩

/-- Half `h` of the result: rows `5000 h …` of the leaky ReLU of the linear layer on the aggregated rows. -/
def half (c : Dev nD) (h : Fin 2) : S5000x128.Idx → EReal := fun i =>
  leaky ((∑ d : Fin 128, (arrX V c (ix2 (rowOf h (i 0)) d)
      + ∑ k : Fin 10000, arrA V c (ix2 (rowOf h (i 0)) k) * arrX V c (ix2 k d)) * arrW V c (ix2 d (i 1)))
    + arrB V c (ix2 (0 : Fin 1) (i 1)))

/-- A grid coordinate is below 25. -/
theorem grid_lt (i : grid0.Coords) : (i 0).val < 25 := (i 0).isLt

/-- The 200 own rows of half `h` loaded at grid point `i` are rows `5000 h + 200 i …` of the embedding matrix. -/
theorem own_rows_apply (x : Vec Ideal S10000x128 .f32) (i : grid0.Coords) (h : Fin 2) (p : Fin 200) (d : Fin 128) :
    View.ld x (rOwn i h) (ix2 p d)
      = x (ix2 (⟨5000 * h.val + 200 * (i 0).val + p.val, by
          have h25 := grid_lt i
          have := h.isLt; have := p.isLt; omega⟩ : Fin 10000) d) := by
  show x ((rOwn i h).emb (ix2 p d)) = _
  refine congrArg x (funext fun a => Fin.ext ?_)
  match a with
  | ⟨0, _⟩ =>
    show (k0_off1 i (BitVec.ofNat 32 (5000 * h.val))) 0 + 1 * p.val = 5000 * h.val + 200 * (i 0).val + p.val
    rw [k0_off1_eq]; simp
  | ⟨1, _⟩ =>
    show (k0_off1 i (BitVec.ofNat 32 (5000 * h.val))) 1 + 1 * d.val = d.val
    rw [k0_off1_eq]; simp

/-- The first half's output buffer at `(p, j)`, over the loaded blocks. -/
theorem out5_apply (i : grid0.Coords) (a : Vec Ideal S200x10000 .f32) (x : Vec Ideal S10000x128 .f32)
    (w : Vec Ideal S128x128 .f32) (b : Vec Ideal S1x128 .f32) (p : Fin 200) (j : Fin 128) :
    out5 (F := Ideal) i a x w b (ix2 p j)
      = leaky ((∑ d : Fin 128, (x (ix2 (⟨5000 * (0 : Fin 2).val + 200 * (i 0).val + p.val, by
            have h25 := grid_lt i
            have := p.isLt; simp; omega⟩ : Fin 10000) d)
          + ∑ k : Fin 10000, a (ix2 p k) * x (ix2 k d)) * w (ix2 d j)) + b (ix2 (0 : Fin 1) j)) := by
  unfold out5
  rw [View.canon_unit_zero hz]
  simp only [View.ld_unit_zero (S := S200x10000) hz, View.ld_unit_zero (S := S10000x128) hz,
    View.ld_unit_zero (S := S128x128) hz, View.ld_unit_zero (S := S1x128) hz]
  rw [pay2_apply]
  refine congrArg leaky (congrArg (· + b (ix2 (0 : Fin 1) j)) (Finset.sum_congr rfl fun d _ => ?_))
  exact congrArg (fun z => (z + ∑ k : Fin 10000, a (ix2 p k) * x (ix2 k d)) * w (ix2 d j)) (own_rows_apply x i 0 p d)

/-- The second half's output buffer at `(p, j)`, over the loaded blocks. -/
theorem out6_apply (i : grid0.Coords) (a : Vec Ideal S200x10000 .f32) (x : Vec Ideal S10000x128 .f32)
    (w : Vec Ideal S128x128 .f32) (b : Vec Ideal S1x128 .f32) (p : Fin 200) (j : Fin 128) :
    out6 (F := Ideal) i a x w b (ix2 p j)
      = leaky ((∑ d : Fin 128, (x (ix2 (⟨5000 * (1 : Fin 2).val + 200 * (i 0).val + p.val, by
            have h25 := grid_lt i
            have := p.isLt; simp; omega⟩ : Fin 10000) d)
          + ∑ k : Fin 10000, a (ix2 p k) * x (ix2 k d)) * w (ix2 d j)) + b (ix2 (0 : Fin 1) j)) := by
  unfold out6
  rw [View.canon_unit_zero hz]
  simp only [View.ld_unit_zero (S := S200x10000) hz, View.ld_unit_zero (S := S10000x128) hz,
    View.ld_unit_zero (S := S128x128) hz, View.ld_unit_zero (S := S1x128) hz]
  rw [pay1_apply]
  refine congrArg leaky (congrArg (· + b (ix2 (0 : Fin 1) j)) (Finset.sum_congr rfl fun d _ => ?_))
  exact congrArg (fun z => (z + ∑ k : Fin 10000, a (ix2 p k) * x (ix2 k d)) * w (ix2 d j)) (own_rows_apply x i 1 p d)

/-- A grid point's number is below 25. -/
theorem point_lt (t : Fin cfg0.N) : t.val < 25 := lt_of_lt_of_eq t.isLt N_0

/-- The printed index maps, decided over the grid: the two adjacency windows are at block rows `t` and `25 + t`, the three
    whole-array windows at block zero, the two result windows at block row `t`; the grid coordinate of point `t` is `t`. -/
theorem idx_facts : ∀ t : Fin cfg0.N,
    win0_0.index t (0 : Fin 2) = t.val ∧ win0_0.index t (1 : Fin 2) = 0
    ∧ win0_1.index t (0 : Fin 2) = 25 + t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0
    ∧ (grid0.coords t 0).val = t.val :=
  (by decide +kernel : ∀ t : Fin grid0.N, _)

/-- Adjacency window `0`'s block at point `t` is rows `200 t …` of the adjacency matrix. -/
theorem blk0_apply (c : Dev nD) (t : Fin cfg0.N) (a : Vec Ideal S200x10000 .f32) (ha : a = iblk V c 0 t) (p : Fin 200) (k : Fin 10000) :
    a (ix2 p k) = arrA V c (ix2 (⟨200 * t.val + p.val, by have := point_lt t; have := p.isLt; omega⟩ : Fin 10000) k) := by
  subst ha
  obtain ⟨e0, e1, -⟩ := idx_facts t
  unfold iblk
  rw [View.read_apply]
  show V c main_arg1 _ = V c main_arg1 _
  refine congrArg (V c main_arg1) (funext fun b => Fin.ext ?_)
  match b with
  | ⟨0, _⟩ => show win0_0.index t (0 : Fin 2) * 200 + 1 * p.val = 200 * t.val + p.val; rw [e0]; omega
  | ⟨1, _⟩ => show win0_0.index t (1 : Fin 2) * 10000 + 1 * k.val = k.val; rw [e1]; omega

/-- Adjacency window `1`'s block at point `t` is rows `5000 + 200 t …` of the adjacency matrix. -/
theorem blk1_apply (c : Dev nD) (t : Fin cfg0.N) (a : Vec Ideal S200x10000 .f32) (ha : a = iblk V c 1 t) (p : Fin 200) (k : Fin 10000) :
    a (ix2 p k) = arrA V c (ix2 (⟨5000 + 200 * t.val + p.val, by have := point_lt t; have := p.isLt; omega⟩ : Fin 10000) k) := by
  subst ha
  obtain ⟨-, -, e0, e1, -⟩ := idx_facts t
  unfold iblk
  rw [View.read_apply]
  show V c main_arg1 _ = V c main_arg1 _
  refine congrArg (V c main_arg1) (funext fun b => Fin.ext ?_)
  match b with
  | ⟨0, _⟩ => show win0_1.index t (0 : Fin 2) * 200 + 1 * p.val = 5000 + 200 * t.val + p.val; rw [e0]; omega
  | ⟨1, _⟩ => show win0_1.index t (1 : Fin 2) * 10000 + 1 * k.val = k.val; rw [e1]; omega

/-- The embedding window's block is the whole embedding matrix. -/
theorem blk2_apply (c : Dev nD) (t : Fin cfg0.N) (x : Vec Ideal S10000x128 .f32) (hx : x = iblk V c 2 t) (r : Fin 10000) (d : Fin 128) :
    x (ix2 r d) = arrX V c (ix2 r d) := by
  subst hx
  obtain ⟨-, -, -, -, e0, e1, -⟩ := idx_facts t
  unfold iblk
  rw [View.read_apply]
  show V c main_arg0 _ = V c main_arg0 _
  refine congrArg (V c main_arg0) (funext fun b => Fin.ext ?_)
  match b with
  | ⟨0, _⟩ => show win0_2.index t (0 : Fin 2) * 10000 + 1 * r.val = r.val; rw [e0]; omega
  | ⟨1, _⟩ => show win0_2.index t (1 : Fin 2) * 128 + 1 * d.val = d.val; rw [e1]; omega

/-- The weights window's block is the whole (transposed) weight matrix. -/
theorem blk3_apply (c : Dev nD) (t : Fin cfg0.N) (w : Vec Ideal S128x128 .f32) (hw : w = iblk V c 3 t) (d j : Fin 128) :
    w (ix2 d j) = arrW V c (ix2 d j) := by
  subst hw
  obtain ⟨-, -, -, -, -, -, e0, e1, -⟩ := idx_facts t
  unfold iblk
  rw [View.read_apply]
  show V c main_v0 _ = V c main_v0 _
  refine congrArg (V c main_v0) (funext fun b => Fin.ext ?_)
  match b with
  | ⟨0, _⟩ => show win0_3.index t (0 : Fin 2) * 128 + 1 * d.val = d.val; rw [e0]; omega
  | ⟨1, _⟩ => show win0_3.index t (1 : Fin 2) * 128 + 1 * j.val = j.val; rw [e1]; omega

/-- The bias window's block is the whole bias row. -/
theorem blk4_apply (c : Dev nD) (t : Fin cfg0.N) (b : Vec Ideal S1x128 .f32) (hb : b = iblk V c 4 t) (j : Fin 128) :
    b (ix2 (0 : Fin 1) j) = arrB V c (ix2 (0 : Fin 1) j) := by
  subst hb
  obtain ⟨-, -, -, -, -, -, -, -, e0, e1, -⟩ := idx_facts t
  unfold iblk
  rw [View.read_apply]
  show V c main_v1 _ = V c main_v1 _
  refine congrArg (V c main_v1) (funext fun b => Fin.ext ?_)
  match b with
  | ⟨0, _⟩ => show win0_4.index t (0 : Fin 2) * 1 + 1 * (0 : Fin 1).val = (0 : Fin 1).val; rw [e0]; rfl
  | ⟨1, _⟩ => show win0_4.index t (1 : Fin 2) * 128 + 1 * j.val = j.val; rw [e1]; omega

/-- `half` at an index whose row and column are named. -/
theorem half_apply (c : Dev nD) (h : Fin 2) (i : S5000x128.Idx) (r : Fin 10000) (q : Fin 128)
    (hr : 5000 * h.val + (i 0).val = r.val) (hq : (i 1).val = q.val) :
    half V c h i = leaky ((∑ d : Fin 128, (arrX V c (ix2 r d) + ∑ k : Fin 10000, arrA V c (ix2 r k) * arrX V c (ix2 k d)) * arrW V c (ix2 d q))
      + arrB V c (ix2 (0 : Fin 1) q)) := by
  obtain rfl : rowOf h (i 0) = r := Fin.ext hr
  obtain rfl : i 1 = q := Fin.ext hq
  rfl

/-- The row expression depends on its operands only through their values. -/
theorem rowval_congr {x0 x0' : Fin 128 → EReal} {a a' : Fin 10000 → EReal} {x x' : Fin 10000 → Fin 128 → EReal}
    {w w' : Fin 128 → EReal} {b b' : EReal}
    (h0 : ∀ d, x0 d = x0' d) (ha : ∀ k, a k = a' k) (hx : ∀ k d, x k d = x' k d) (hw : ∀ d, w d = w' d) (hb : b = b') :
    leaky ((∑ d : Fin 128, (x0 d + ∑ k : Fin 10000, a k * x k d) * w d) + b)
      = leaky ((∑ d : Fin 128, (x0' d + ∑ k : Fin 10000, a' k * x' k d) * w' d) + b') := by
  simp only [h0, ha, hx, hw, hb]

/-- WHAT POINT `t` WRITES BACK to the first result array is block `t` of `half 0`. -/
theorem flushed5_eq (c : Dev nD) (t : Fin cfg0.N) :
    (dat0 (F := Ideal) V c).flushed 5 t = ((cfg0.win 5).blk t).view.read (Elt Ideal) (half V c 0) := by
  show (cfg0.win 5).cut (grid0.coords t) ((dat0 (F := Ideal) V c).after 5 t) = _
  rw [after5]
  obtain ⟨-, -, -, -, -, -, -, -, -, -, e0, e1, -, -, eg⟩ := idx_facts t
  funext j
  obtain ⟨p, q, rfl⟩ : ∃ (p : Fin 200) (q : Fin 128), j = ix2 p q := ⟨j 0, j 1, eq_ix2 j⟩
  show out5 (F := Ideal) (grid0.coords t) (iblk V c 0 t) (iblk V c 2 t) (iblk V c 3 t) (iblk V c 4 t) (ix2 p q)
    = half V c 0 (((cfg0.win 5).blk t).view.emb (ix2 p q))
  refine (out5_apply (grid0.coords t) (iblk V c 0 t) (iblk V c 2 t) (iblk V c 3 t) (iblk V c 4 t) p q).trans ?_
  refine Eq.trans ?_ (half_apply V c 0 (((cfg0.win 5).blk t).view.emb (ix2 p q))
    (⟨200 * t.val + p.val, by have := point_lt t; have := p.isLt; omega⟩ : Fin 10000) q ?_ ?_).symm
  · refine rowval_congr (fun d => ?_) (fun k => blk0_apply V c t _ rfl p k) (fun k d => blk2_apply V c t _ rfl k d)
      (fun d => blk3_apply V c t _ rfl d q) (blk4_apply V c t _ rfl q)
    refine (blk2_apply V c t _ rfl _ d).trans ?_
    refine congrArg (fun r => arrX V c (ix2 r d)) (Fin.ext ?_)
    show 5000 * (0 : Fin 2).val + 200 * (grid0.coords t 0).val + p.val = 200 * t.val + p.val
    rw [eg]; simp
  · show 5000 * (0 : Fin 2).val + (win0_5.index t (0 : Fin 2) * 200 + 1 * p.val) = 200 * t.val + p.val
    rw [e0]; simp; omega
  · show win0_5.index t (1 : Fin 2) * 128 + 1 * q.val = q.val
    rw [e1]; omega

/-- An index of the first result array is in point `t`'s block iff each coordinate is in the block's range on its axis. -/
theorem mem_blk5 (t : Fin cfg0.N) (i : S5000x128.Idx) :
    i ∈ ((cfg0.win 5).blk t).view.set ↔ ∀ a : Fin 2, win0_5.index t a * S200x128.size a ≤ (i a).val
      ∧ (i a).val < win0_5.index t a * S200x128.size a + S200x128.size a := by
  show i ∈ ((View.whole main_v2_0).slice (win0_5.rect t)).set ↔ _
  rw [View.set_slice_whole, Rect.mem_set_unit]
  exact Iff.rfl

/-- Every index of the first result array is in some point's block: row `r` in point `r / 200`'s. -/
theorem cover5 (i : S5000x128.Idx) :
    ∃ t : Fin cfg0.N, (cfg0.win 5).flush t = true ∧ i ∈ ((cfg0.win 5).blk t).view.set := by
  have hi0 : (i 0).val < 5000 := (i 0).isLt
  have hi1 : (i 1).val < 128 := (i 1).isLt
  have ht : (i 0).val / 200 < cfg0.N := by rw [show cfg0.N = 25 from N_0]; omega
  obtain ⟨-, -, -, -, -, -, -, -, -, -, e0, e1, -⟩ := idx_facts ⟨(i 0).val / 200, ht⟩
  refine ⟨⟨(i 0).val / 200, ht⟩, flush0_5 _, ?_⟩
  rw [mem_blk5]
  intro a
  match a with
  | ⟨0, _⟩ =>
    show win0_5.index ⟨(i 0).val / 200, ht⟩ (0 : Fin 2) * 200 ≤ (i 0).val
      ∧ (i 0).val < win0_5.index ⟨(i 0).val / 200, ht⟩ (0 : Fin 2) * 200 + 200
    rw [e0]; show (i 0).val / 200 * 200 ≤ (i 0).val ∧ (i 0).val < (i 0).val / 200 * 200 + 200; omega
  | ⟨1, _⟩ =>
    show win0_5.index ⟨(i 0).val / 200, ht⟩ (1 : Fin 2) * 128 ≤ (i 1).val
      ∧ (i 1).val < win0_5.index ⟨(i 0).val / 200, ht⟩ (1 : Fin 2) * 128 + 128
    rw [e1]; omega

/-- THE FIRST RESULT ARRAY after the run is `half 0`. -/
theorem final5 (c : Dev nD) : (dat0 (F := Ideal) V c).arrAt 5 cfg0.N = half V c 0 :=
  (dat0 (F := Ideal) V c).arrAt_eq_of_cover 5 (half V c 0) (fun t _ => flushed5_eq V c t) cover5

/-- WHAT POINT `t` WRITES BACK to the second result array is block `t` of `half 1`. -/
theorem flushed6_eq (c : Dev nD) (t : Fin cfg0.N) :
    (dat0 (F := Ideal) V c).flushed 6 t = ((cfg0.win 6).blk t).view.read (Elt Ideal) (half V c 1) := by
  show (cfg0.win 6).cut (grid0.coords t) ((dat0 (F := Ideal) V c).after 6 t) = _
  rw [after6]
  obtain ⟨-, -, -, -, -, -, -, -, -, -, -, -, e0, e1, eg⟩ := idx_facts t
  funext j
  obtain ⟨p, q, rfl⟩ : ∃ (p : Fin 200) (q : Fin 128), j = ix2 p q := ⟨j 0, j 1, eq_ix2 j⟩
  show out6 (F := Ideal) (grid0.coords t) (iblk V c 1 t) (iblk V c 2 t) (iblk V c 3 t) (iblk V c 4 t) (ix2 p q)
    = half V c 1 (((cfg0.win 6).blk t).view.emb (ix2 p q))
  refine (out6_apply (grid0.coords t) (iblk V c 1 t) (iblk V c 2 t) (iblk V c 3 t) (iblk V c 4 t) p q).trans ?_
  refine Eq.trans ?_ (half_apply V c 1 (((cfg0.win 6).blk t).view.emb (ix2 p q))
    (⟨5000 + 200 * t.val + p.val, by have := point_lt t; have := p.isLt; omega⟩ : Fin 10000) q ?_ ?_).symm
  · refine rowval_congr (fun d => ?_) (fun k => blk1_apply V c t _ rfl p k) (fun k d => blk2_apply V c t _ rfl k d)
      (fun d => blk3_apply V c t _ rfl d q) (blk4_apply V c t _ rfl q)
    refine (blk2_apply V c t _ rfl _ d).trans ?_
    refine congrArg (fun r => arrX V c (ix2 r d)) (Fin.ext ?_)
    show 5000 * (1 : Fin 2).val + 200 * (grid0.coords t 0).val + p.val = 5000 + 200 * t.val + p.val
    rw [eg]; simp
  · show 5000 * (1 : Fin 2).val + (win0_6.index t (0 : Fin 2) * 200 + 1 * p.val) = 5000 + 200 * t.val + p.val
    rw [e0]; simp; omega
  · show win0_6.index t (1 : Fin 2) * 128 + 1 * q.val = q.val
    rw [e1]; omega

/-- An index of the second result array is in point `t`'s block iff each coordinate is in the block's range on its axis. -/
theorem mem_blk6 (t : Fin cfg0.N) (i : S5000x128.Idx) :
    i ∈ ((cfg0.win 6).blk t).view.set ↔ ∀ a : Fin 2, win0_6.index t a * S200x128.size a ≤ (i a).val
      ∧ (i a).val < win0_6.index t a * S200x128.size a + S200x128.size a := by
  show i ∈ ((View.whole main_v2_1).slice (win0_6.rect t)).set ↔ _
  rw [View.set_slice_whole, Rect.mem_set_unit]
  exact Iff.rfl

/-- Every index of the second result array is in some point's block: row `r` in point `r / 200`'s. -/
theorem cover6 (i : S5000x128.Idx) :
    ∃ t : Fin cfg0.N, (cfg0.win 6).flush t = true ∧ i ∈ ((cfg0.win 6).blk t).view.set := by
  have hi0 : (i 0).val < 5000 := (i 0).isLt
  have hi1 : (i 1).val < 128 := (i 1).isLt
  have ht : (i 0).val / 200 < cfg0.N := by rw [show cfg0.N = 25 from N_0]; omega
  obtain ⟨-, -, -, -, -, -, -, -, -, -, -, -, e0, e1, -⟩ := idx_facts ⟨(i 0).val / 200, ht⟩
  refine ⟨⟨(i 0).val / 200, ht⟩, flush0_6 _, ?_⟩
  rw [mem_blk6]
  intro a
  match a with
  | ⟨0, _⟩ =>
    show win0_6.index ⟨(i 0).val / 200, ht⟩ (0 : Fin 2) * 200 ≤ (i 0).val
      ∧ (i 0).val < win0_6.index ⟨(i 0).val / 200, ht⟩ (0 : Fin 2) * 200 + 200
    rw [e0]; show (i 0).val / 200 * 200 ≤ (i 0).val ∧ (i 0).val < (i 0).val / 200 * 200 + 200; omega
  | ⟨1, _⟩ =>
    show win0_6.index ⟨(i 0).val / 200, ht⟩ (1 : Fin 2) * 128 ≤ (i 1).val
      ∧ (i 1).val < win0_6.index ⟨(i 0).val / 200, ht⟩ (1 : Fin 2) * 128 + 128
    rw [e1]; omega

/-- THE SECOND RESULT ARRAY after the run is `half 1`. -/
theorem final6 (c : Dev nD) : (dat0 (F := Ideal) V c).arrAt 6 cfg0.N = half V c 1 :=
  (dat0 (F := Ideal) V c).arrAt_eq_of_cover 6 (half V c 1) (fun t _ => flushed6_eq V c t) cover6

end Cert.KernelIdeal.Value

end
-- ==== Proof.RunI.lean ====
/-
  The whole run of the aggregation program: two host operations (the weights transposed, the bias as a one-row
  matrix), the kernel region over its 25 grid points, and one host operation joining the two halves.

  Between these pieces the core holds every unscoped buffer at known contents: the launch contents, then those
  after the two host operations, then — the region having written back only its two result arrays — the same with
  the two halves at what the write-backs leave, then those after the join.  The adjacency matrix is handed to the
  region's two windows half a share each and joined again at the exit.
-/
import proofs.«118306_g84293028151720_cont_9to1_m_1401_9_alg».proof.Proof.Gen.KernelIdeal.Launch
import proofs.«118306_g84293028151720_cont_9to1_m_1401_9_alg».proof.Proof.Gen.KernelIdeal.Skeleton
import proofs.«118306_g84293028151720_cont_9to1_m_1401_9_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«118306_g84293028151720_cont_9to1_m_1401_9_alg».proof.Proof.DataI
set_option maxRecDepth 16384

noncomputable section

namespace Cert.KernelIdeal.Run

open Cert.KernelIdeal.Body Cert.KernelIdeal.Data
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => m (c, b)
/-- After the two host operations before the region. -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- At the region's exit: the two result halves at what the write-backs leave, every other buffer as entered. -/
def W2 (c : Dev nD) : Valuation τ sig (Elt F) :=
  Function.update (Function.update (W1 m c) main_v2_0 ((dat0 (V1 m) c).arrAt 5 cfg0.N)) main_v2_1 ((dat0 (V1 m) c).arrAt 6 cfg0.N)
abbrev V2 : (c : Dev nD) → (b : Ref sig .tc) → Buf (Elt F) ((c : Thread nD τ).loc b) := fun c b => W2 m c b
/-- After the join. -/
abbrev W3 : Dev nD → Valuation τ sig (Elt F) := fun c => StableHlo.after hostOps1 (W2 m c)

theorem W2_v2_1 (c : Dev nD) : W2 m c main_v2_1 = (dat0 (V1 m) c).arrAt 6 cfg0.N := by
  unfold W2; exact Function.update_self ..
theorem W2_v2_0 (c : Dev nD) : W2 m c main_v2_0 = (dat0 (V1 m) c).arrAt 5 cfg0.N := by
  unfold W2
  rw [Function.update_of_ne (StableHlo.devRef_ne_of_ne (by decide) : (Proc.devRef .tc main_v2_0 : DevRef τ sig) ≠ Proc.devRef .tc main_v2_1)]
  exact Function.update_self ..
theorem W2_of_ne (c : Dev nD) (b : Ref sig .tc) (h0 : b ≠ main_v2_0) (h1 : b ≠ main_v2_1) : W2 m c b = W1 m c b := by
  unfold W2
  rw [Function.update_of_ne (StableHlo.devRef_ne_of_ne h1 : (Proc.devRef .tc b : DevRef τ sig) ≠ Proc.devRef .tc main_v2_1),
    Function.update_of_ne (StableHlo.devRef_ne_of_ne h0 : (Proc.devRef .tc b : DevRef τ sig) ≠ Proc.devRef .tc main_v2_0)]

/-! ## The windows' arrays, one by one -/

/-- The distinct buffers behind the seven windows' arrays are six. -/
theorem arrBufs_list (c : Dev nD) (V : (b : Ref sig .tc) → Buf (Elt F) ((c : Thread nD τ).loc b)) :
    (Pipeline.arrBufs (Ix := Unit) (Name := ℕ) (U := UR sig nD τ) (Lvl := ℕ) spec0 c V : sProp 𝕄)
      = iprop((((c : Thread nD τ).loc main_arg1) ↦{fullShare} V main_arg1) ∗ (((c : Thread nD τ).loc main_arg0) ↦{fullShare} V main_arg0)
          ∗ (((c : Thread nD τ).loc main_v0) ↦{fullShare} V main_v0) ∗ (((c : Thread nD τ).loc main_v1) ↦{fullShare} V main_v1)
          ∗ (((c : Thread nD τ).loc main_v2_0) ↦{fullShare} V main_v2_0) ∗ (((c : Thread nD τ).loc main_v2_1) ↦{fullShare} V main_v2_1)) := by
  unfold Pipeline.arrBufs
  exact bigSep_eq_bigSepL_of_eq [main_arg1, main_arg0, main_v0, main_v1, main_v2_0, main_v2_1] (by decide) (by decide) _

/-- The unscoped buffers are those six and the three no window is on. -/
theorem unscoped_split (c : Dev nD) (V : (b : Ref sig .tc) → Buf (Elt F) ((c : Thread nD τ).loc b)) :
    (unscopedBufs (Ix := Unit) (Name := ℕ) (U := UR sig nD τ) (Lvl := ℕ) c V : sProp 𝕄)
      = iprop((Pipeline.arrBufs (Ix := Unit) (Name := ℕ) (U := UR sig nD τ) (Lvl := ℕ) spec0 c V : sProp 𝕄)
          ∗ Pipeline.unscopedRest (Ix := Unit) (Name := ℕ) (U := UR sig nD τ) (Lvl := ℕ) spec0 c V) :=
  Pipeline.unscopedBufs_split₀ cfgs 0 winFacts₀0.arr_unscoped c V

/-- The pipeline's arrays at contents `Fw`, window by window: the adjacency matrix twice, half a share each. -/
theorem arrays_chain (c : Dev nD) (V : (c : Dev nD) → (b : Ref sig .tc) → Buf (Elt F) ((c : Thread nD τ).loc b))
    (Fw : (w : Fin cfg0.W) → Buf (Elt F) ((cfg0.win w).arr.view.loc (c : Thread nD τ))) :
    ((dat0 V c).arrays Fw : sProp 𝕄)
      = iprop((((c : Thread nD τ).loc main_arg1) ↦{fullShare.left} Fw 0) ∗ (((c : Thread nD τ).loc main_arg1) ↦{fullShare.right} Fw 1)
          ∗ (((c : Thread nD τ).loc main_arg0) ↦{fullShare} Fw 2) ∗ (((c : Thread nD τ).loc main_v0) ↦{fullShare} Fw 3)
          ∗ (((c : Thread nD τ).loc main_v1) ↦{fullShare} Fw 4) ∗ (((c : Thread nD τ).loc main_v2_0) ↦{fullShare} Fw 5)
          ∗ (((c : Thread nD τ).loc main_v2_1) ↦{fullShare} Fw 6)) := by
  unfold Dat.arrays
  rw [bigSep_W0]
  rw [(arr_whole0 0).set_eq_univ, (arr_whole0 2).set_eq_univ, (arr_whole0 3).set_eq_univ,
    (arr_whole0 4).set_eq_univ, (arr_whole0 5).set_eq_univ, (arr_whole0 6).set_eq_univ]
  rfl

/-! ## The region's entry and exit -/

/-- ENTRY: every unscoped buffer at the entry contents gives the pipeline's arrays at their entry contents — the
    adjacency matrix's share halved between its two windows — and the three buffers no window is on. -/
theorem entry_split (c : Dev nD) :
    (StableHlo.held (c : Thread nD τ) (Pipeline.ucRefs τ sig) (W1 m c) : sProp 𝕄)
      ⊢ iprop((dat0 (V1 m) c).arrays ((dat0 (V1 m) c).arrAt · 0)
          ∗ Pipeline.unscopedRest (Ix := Unit) (Name := ℕ) (U := UR sig nD τ) (Lvl := ℕ) spec0 c (V1 m c)) := by
  rw [← Pipeline.unscopedBufs_held (Ix := Unit) (Name := ℕ) (U := UR sig nD τ) (Lvl := ℕ) c (W1 m c)]
  rw [unscoped_split c (V1 m c), arrBufs_list, arrays_chain]
  iintro ⟨⟨Ha1, Ha0, Hv0, Hv1, H20, H21⟩, Hr⟩
  ihave Hs := (pointsTo_share (PosShare.mem_left_op_right fullShare)).1 $$ Ha1
  icases Hs with ⟨HL, HR⟩
  isplitr [Hr]
  swap; · iexact Hr
  isplitl [HL]; · iexact HL
  isplitl [HR]; · iexact HR
  isplitl [Ha0]; · iexact Ha0
  isplitl [Hv0]; · iexact Hv0
  isplitl [Hv1]; · iexact Hv1
  isplitl [H20]; · iexact H20
  iexact H21

/-- What each array holds at the exit, in terms of the exit contents. -/
theorem exit_in (c : Dev nD) (w : Fin cfg0.W) (hw : (cfg0.win w).isOut = false) (h0 : Pipeline.arrRef spec0 w ≠ main_v2_0)
    (h1 : Pipeline.arrRef spec0 w ≠ main_v2_1) : (dat0 (V1 m) c).arrAt w cfg0.N = V2 m c (Pipeline.arrRef spec0 w) :=
  ((dat0 (V1 m) c).arrAt_in w hw _).trans ((A_eq (V1 m) c w).trans (W2_of_ne m c _ h0 h1).symm)

/-- EXIT: the arrays at their final contents — the two halves of the adjacency matrix's share joined — and the
    three bypassing buffers are every unscoped buffer at the exit contents. -/
theorem exit_join (c : Dev nD) :
    iprop((dat0 (V1 m) c).arrays ((dat0 (V1 m) c).arrAt · cfg0.N)
        ∗ Pipeline.unscopedRest (Ix := Unit) (Name := ℕ) (U := UR sig nD τ) (Lvl := ℕ) spec0 c (V1 m c))
      ⊢ (StableHlo.held (c : Thread nD τ) (Pipeline.ucRefs τ sig) (W2 m c) : sProp 𝕄) := by
  rw [← Pipeline.unscopedBufs_held (Ix := Unit) (Name := ℕ) (U := UR sig nD τ) (Lvl := ℕ) c (W2 m c)]
  rw [unscoped_split c (V2 m c), arrBufs_list, arrays_chain, unscopedRest0_eq, unscopedRest0_eq]
  have e0 := exit_in m c 0 rfl (by decide) (by decide)
  have e1 := exit_in m c 1 rfl (by decide) (by decide)
  have e2 := exit_in m c 2 rfl (by decide) (by decide)
  have e3 := exit_in m c 3 rfl (by decide) (by decide)
  have e4 := exit_in m c 4 rfl (by decide) (by decide)
  have e5 : (dat0 (V1 m) c).arrAt 5 cfg0.N = V2 m c main_v2_0 := (W2_v2_0 m c).symm
  have e6 : (dat0 (V1 m) c).arrAt 6 cfg0.N = V2 m c main_v2_1 := (W2_v2_1 m c).symm
  have r2 : V2 m c main_arg2 = V1 m c main_arg2 := W2_of_ne m c main_arg2 (by decide) (by decide)
  have r3 : V2 m c main_arg3 = V1 m c main_arg3 := W2_of_ne m c main_arg3 (by decide) (by decide)
  have r8 : V2 m c main_v3 = V1 m c main_v3 := W2_of_ne m c main_v3 (by decide) (by decide)
  rw [e0, e1, e2, e3, e4, e5, e6, r2, r3, r8]
  iintro ⟨⟨HL, HR, Ha0, Hv0, Hv1, H20, H21⟩, Hr⟩
  ihave Ha1 := (pointsTo_share (PosShare.mem_left_op_right fullShare)).2 $$ [HL HR]
  · isplitl [HL]; · iexact HL
    iexact HR
  isplitr [Hr]
  swap; · iexact Hr
  isplitl [Ha1]; · iexact Ha1
  isplitl [Ha0]; · iexact Ha0
  isplitl [Hv0]; · iexact Hv0
  isplitl [Hv1]; · iexact Hv1
  isplitl [H20]; · iexact H20
  iexact H21

/-! ## The proof data family, the thread state and the segments -/

abbrev adm : (p : Fin 1) → (pcfgs (F := F) p).Adm := fun p => (cfgs p).toPCfg_adm
def pdats : (p : Fin 1) → (c : Dev nD) → Dat τ (Elt F) Unit ℕ (UR sig nD τ) ℕ (Pipeline.pin (pcfgs (F := F)) adm p) c
  | ⟨0, _⟩ => fun c => dat0 (V1 m) c
abbrev 𝒱₀ : Variants := Variants.none
abbrev L : GSem nD τ sig → Finset Unit := fun _ => ∅
abbrev lv : GSem nD τ sig → Unit → ℕ := fun _ _ => 0
/-- What rides beside the buffers through every segment: the generator register at some state and the core owing
    nothing. -/
abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m c) ∗ ∃ r, prngReg c r)

set_option backward.isDefEq.respectTransparency.types false in
/-- THE REGION over the thread state: entered from every unscoped buffer at the entry contents, left at the exit
    contents; the generator register into the invariant and out; nothing owed; no semaphore of the kernel's own. -/
def reg0 : Pipeline.RegionSeg (pcfgs (F := F)) adm (pdats m) () defs₀ 𝒱₀ L lv 0 where
  win := winFacts₀0
  block_pos := block_pos0
  stage_whole := stage_whole0
  K := PEmpty
  osem k := k.elim
  ho := Pipeline.OwnSemFacts.none _
  hbody c := (body_obligation (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    iintro ⟨⟨Hub, Hp, HO⟩, -, -⟩
    have he : (StableHlo.held (c : Thread nD τ) (Pipeline.ucRefs τ sig) (W1 m c) : sProp 𝕄)
        ⊢ iprop((pdats m 0 c).arrays ((pdats m 0 c).arrAt · 0)
          ∗ Pipeline.unscopedRest (Ix := Unit) (Name := ℕ) (U := UR sig nD τ) (Lvl := ℕ) spec0 c (V1 m c)) := entry_split m c
    ihave H := he $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    iintro ⟨Ha, HO, HY, Hrest⟩
    imodintro
    isplitl [Ha Hrest]
    · have hj : iprop((pdats m 0 c).arrays ((pdats m 0 c).arrAt · cfg0.N)
          ∗ Pipeline.unscopedRest (Ix := Unit) (Name := ℕ) (U := UR sig nD τ) (Lvl := ℕ) spec0 c (V1 m c))
          ⊢ (StableHlo.held (c : Thread nD τ) (Pipeline.ucRefs τ sig) (W2 m c) : sProp 𝕄) := exit_join m c
      iapply hj
      isplitl [Ha]; · iexact Ha
      iexact Hrest
    isplitl [HY]; · iexact HY
    unfold Pipeline.Dat.owesAt Pipeline.owesWithin
    icases HO with ⟨%W, -, HO⟩; iexists W; iexact HO

/-- The program's three segments in order. -/
abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)) ]
theorem main_run (c : Dev nD) : main (F := F) c = Pipeline.Seg.run (segs m) := (main_chain c).trans (by chain_rfl)

set_option backward.isDefEq.respectTransparency.types false in
/-- THE RUN: from any memory with zero counters every weakly fair execution terminates, nothing faulting, and every
    final state holds each unscoped buffer at the last boundary's contents. -/
theorem run : θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun c => by
      refine (show iprop(StableHlo.held (c : Thread nD τ) (Pipeline.ucRefs τ sig) (W3 m c) ∗ R c)
        ⊢ iprop(Tₙ m c ∗ ∃ W, owes (c : Thread nD τ) (0 : CellTallies nD τ sig Unit) W) from ?_)
      iintro ⟨Hh, Hp, HO⟩
      isplitr [HO]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c => h c)

end Cert.KernelIdeal.Run

end
-- ==== Proof.HostI.lean ====
/-
  The aggregation program's three host operations, read back at the boundaries of its run: before the kernel
  region the weights transposed and the bias as a one-row matrix, after it the two result halves joined along
  the rows.  No host operation writes an argument, and the region's exit leaves every buffer but the two halves
  as entered, so each argument is at its launch contents at every boundary.
-/
import proofs.«118306_g84293028151720_cont_9to1_m_1401_9_alg».proof.Proof.RunI
import Idealize.ShloMosaic.Lib.StableHlo.Run

noncomputable section

namespace Cert.KernelIdeal.HostOps

open Cert.KernelIdeal Cert.KernelIdeal.Gen Cert.KernelIdeal.Run Cert.KernelIdeal.Data
open Idealize.ShloMosaic Idealize.ShloMosaic.TcCoe Idealize.SL.Sem

variable {F : FTy → Type} [FloatOps F]

variable (m : (ℓ : Loc nD τ sig) → Buf (Elt F) ℓ)

/-! ## What the host operations write -/

/-- The two operations before the region write only the transposed weights and the one-row bias. -/
theorem not_written0 (b : Ref sig .tc) (h0 : b ≠ main_v0) (h1 : b ≠ main_v1) :
    ∀ op ∈ (hostOps0 (F := F)), Proc.devRef .tc b ∉ op.writes := by
  intro op hop
  simp only [List.mem_cons, List.mem_nil_iff, or_false] at hop
  rcases hop with rfl | rfl <;>
    simp only [StableHlo.unary_writes, StableHlo.reshape_writes, Finset.mem_singleton] <;>
    exact StableHlo.devRef_ne_of_ne ‹_›

/-- The operation after the region writes only the joined result. -/
theorem not_written1 (b : Ref sig .tc) (h3 : b ≠ main_v3) :
    ∀ op ∈ (hostOps1 (F := F)), Proc.devRef .tc b ∉ op.writes := by
  intro op hop
  simp only [List.mem_cons, List.mem_nil_iff, or_false] at hop
  rcases hop with rfl
  simp only [StableHlo.binary_writes, Finset.mem_singleton]
  exact StableHlo.devRef_ne_of_ne h3

/-- A buffer the first two operations do not write is, at the region's entry, as launched. -/
theorem V1_of_ne (c : Dev nD) (b : Ref sig .tc) (h0 : b ≠ main_v0) (h1 : b ≠ main_v1) :
    V1 m c b = m ((c : Thread nD τ).loc b) :=
  StableHlo.after_of_forall_not_mem (b := Proc.devRef .tc b) hostOps0 (W0 m c) (not_written0 b h0 h1)

/-- A buffer no host operation writes and the region does not write back is, at the end, as launched. -/
theorem W3_of_ne (c : Dev nD) (b : Ref sig .tc) (h0 : b ≠ main_v0) (h1 : b ≠ main_v1) (h20 : b ≠ main_v2_0)
    (h21 : b ≠ main_v2_1) (h3 : b ≠ main_v3) : W3 m c b = m ((c : Thread nD τ).loc b) :=
  (StableHlo.after_of_forall_not_mem (b := Proc.devRef .tc b) hostOps1 (W2 m c) (not_written1 b h3)).trans
    ((W2_of_ne m c b h20 h21).trans (V1_of_ne m c b h0 h1))

/-! ## The arguments at the region's entry -/

theorem V1_arg0 (c : Dev nD) : V1 m c main_arg0 = m ((c : Thread nD τ).loc main_arg0) :=
  V1_of_ne m c main_arg0 (by decide) (by decide)
theorem V1_arg1 (c : Dev nD) : V1 m c main_arg1 = m ((c : Thread nD τ).loc main_arg1) :=
  V1_of_ne m c main_arg1 (by decide) (by decide)
theorem V1_arg2 (c : Dev nD) : V1 m c main_arg2 = m ((c : Thread nD τ).loc main_arg2) :=
  V1_of_ne m c main_arg2 (by decide) (by decide)
theorem V1_arg3 (c : Dev nD) : V1 m c main_arg3 = m ((c : Thread nD τ).loc main_arg3) :=
  V1_of_ne m c main_arg3 (by decide) (by decide)

/-! ## The two values the operations before the region compute -/

/-- The weights' buffer for the region: the weight matrix transposed. -/
theorem V1_v0 (c : Dev nD) :
    (V1 m c main_v0 : S128x128.Idx → Elt F .f32)
      = transpose S128x128 [1, 0] (m ((c : Thread nD τ).loc main_arg2)) transposes_S128x128_S128x128_1_0 := by
  show StableHlo.after hostOps0 (W0 m c) (Proc.devRef .tc main_v0) = _
  after_results

/-- The bias's buffer for the region: the bias as a one-row matrix. -/
theorem V1_v1 (c : Dev nD) :
    (V1 m c main_v1 : S1x128.Idx → Elt F .f32)
      = shapeCast S1x128 (m ((c : Thread nD τ).loc main_arg3)) shapeCasts_S128_S1x128 := by
  show StableHlo.after hostOps0 (W0 m c) (Proc.devRef .tc main_v1) = _
  after_results
  rfl

/-! ## The arguments at the end -/

theorem W3_arg0 (c : Dev nD) : W3 m c main_arg0 = m ((c : Thread nD τ).loc main_arg0) :=
  W3_of_ne m c main_arg0 (by decide) (by decide) (by decide) (by decide) (by decide)
theorem W3_arg1 (c : Dev nD) : W3 m c main_arg1 = m ((c : Thread nD τ).loc main_arg1) :=
  W3_of_ne m c main_arg1 (by decide) (by decide) (by decide) (by decide) (by decide)
theorem W3_arg2 (c : Dev nD) : W3 m c main_arg2 = m ((c : Thread nD τ).loc main_arg2) :=
  W3_of_ne m c main_arg2 (by decide) (by decide) (by decide) (by decide) (by decide)
theorem W3_arg3 (c : Dev nD) : W3 m c main_arg3 = m ((c : Thread nD τ).loc main_arg3) :=
  W3_of_ne m c main_arg3 (by decide) (by decide) (by decide) (by decide) (by decide)

/-! ## The result -/

/-- The result's buffer at the end: the two halves the region wrote back, joined along the rows. -/
theorem W3_v3 (c : Dev nD) :
    (W3 m c main_v3 : S10000x128.Idx → Elt F .f32)
      = concatenate S10000x128 0 [⟨S5000x128, (dat0 (V1 m) c).arrAt 5 cfg0.N⟩, ⟨S5000x128, (dat0 (V1 m) c).arrAt 6 cfg0.N⟩]
          concatenates_S5000x128_S5000x128_S10000x128_d0 := by
  show StableHlo.after hostOps1 (W2 m c) (Proc.devRef .tc main_v3) = _
  after_results
  rw [W2_v2_0, W2_v2_1]

end Cert.KernelIdeal.HostOps

end
-- ==== Proof.KernelValue.lean ====
/-
  The kernel's result array is the common function of the arguments.

  The run leaves in the result the two halves joined along the rows.  Row r of the upper half (r < 5000) was
  produced from slab rows r of the adjacency matrix and own rows r of the embeddings; row r of the lower half from
  rows 5000 + r.  The weights enter transposed and the bias as a one-row matrix, so entry (d, j) of the one is
  W j d and entry (0, j) of the other is b j.  Put together, entry (r, j) of the joined array is the specification's.
-/
import proofs.«118306_g84293028151720_cont_9to1_m_1401_9_alg».proof.Proof.ValueI
import proofs.«118306_g84293028151720_cont_9to1_m_1401_9_alg».proof.Proof.HostI
import proofs.«118306_g84293028151720_cont_9to1_m_1401_9_alg».proof.Proof.PayValue
import proofs.«118306_g84293028151720_cont_9to1_m_1401_9_alg».proof.Proof.Spec

noncomputable section

namespace Cert.KernelIdeal.Result

open Cert.KernelIdeal Cert.KernelIdeal.Gen Cert.KernelIdeal.Data Cert.KernelIdeal.Run Cert.KernelIdeal.HostOps
open Cert.KernelIdeal.Value Cert.KernelIdeal.PayValue Cert.Agg
open Idealize.ShloMosaic Idealize.ShloMosaic.TcCoe Idealize.ShloMosaic.ValueIdx Idealize.SL.Sem

variable (m : (ℓ : Loc nD τ sig) → Buf (Elt Ideal) ℓ)

/-- The specification at the program's arguments on core `c`. -/
abbrev GM (c : Dev nD) : FVec Ideal SX .f32 :=
  G (m ((c.tc : Thread nD τ).loc main_arg0)) (m ((c.tc : Thread nD τ).loc main_arg1)) (m ((c.tc : Thread nD τ).loc main_arg2))
    (m ((c.tc : Thread nD τ).loc main_arg3))

/-- Entry (p, j) of half `h` is the specification's entry at row 5000·h + p. -/
theorem half_eq (c : Dev nD) (h : Fin 2) (p : Fin 5000) (j : Fin 128) :
    half (V1 m) c h (ix2 p j) = GM m c (ix2 (⟨5000 * h.val + p.val, by have := p.isLt; have := h.isLt; omega⟩ : Fin 10000) j) := by
  have hX : arrX (V1 m) c = (m ((c.tc : Thread nD τ).loc main_arg0) : S10000x128.Idx → EReal) := V1_arg0 m c
  have hA : arrA (V1 m) c = (m ((c.tc : Thread nD τ).loc main_arg1) : S10000x10000.Idx → EReal) := V1_arg1 m c
  have hW : ∀ d : Fin 128, arrW (V1 m) c (ix2 d j) = (m ((c.tc : Thread nD τ).loc main_arg2) : S128x128.Idx → EReal) (ix2 j d) := fun d => by
    show (V1 m c main_v0 : S128x128.Idx → Elt Ideal .f32) (ix2 d j) = _
    rw [V1_v0]; exact transpose_apply' _ d j
  have hB : arrB (V1 m) c (ix2 (0 : Fin 1) j) = (m ((c.tc : Thread nD τ).loc main_arg3) : S128.Idx → EReal) (ix1 j) := by
    show (V1 m c main_v1 : S1x128.Idx → Elt Ideal .f32) (ix2 (0 : Fin 1) j) = _
    rw [V1_v1]; exact reshape_row_apply _ j
  rw [half_apply (V1 m) c h (ix2 p j) ⟨5000 * h.val + p.val, by have := p.isLt; have := h.isLt; omega⟩ j rfl rfl, hX, hA, hB]
  simp only [hW]
  rfl

/-- The joined halves are the specification. -/
theorem result_eq (c : Dev nD) : (W3 m c main_v3 : S10000x128.Idx → Elt Ideal .f32) = GM m c := by
  rw [W3_v3, final5, final6]
  funext i
  obtain ⟨r, j, rfl⟩ : ∃ (r : Fin 10000) (j : Fin 128), i = ix2 r j := ⟨i 0, i 1, eq_ix2 i⟩
  rw [concat_rows_apply]
  split
  · next hr =>
    rw [half_eq m c 0 ⟨r.val, hr⟩ j]
    refine congrArg (fun q : Fin 10000 => GM m c (ix2 q j)) (Fin.ext ?_)
    show 5000 * 0 + r.val = r.val
    omega
  · next hr =>
    rw [half_eq m c 1 ⟨r.val - 5000, by have := r.isLt; omega⟩ j]
    refine congrArg (fun q : Fin 10000 => GM m c (ix2 q j)) (Fin.ext ?_)
    show 5000 * 1 + (r.val - 5000) = r.val
    omega

end Cert.KernelIdeal.Result

end
-- ==== Proof.RefRun.lean ====
/-
  The reference program's run, read back.  Its entry function is a straight line of host operations once the
  two module-local functions it calls (the leaky ReLU and the three-way choice inside it) are unfolded at their
  call sites: nineteen operations in all.  Every weakly fair execution terminates with the result buffer at the
  operations' composed pure term of the four argument arrays, and the arguments unchanged.
-/
import proofs.«118306_g84293028151720_cont_9to1_m_1401_9_alg».proof.Proof.Gen.ReferenceIdeal
import Idealize.ShloMosaic.Lib.StableHlo.Run
import Idealize.ShloMosaic.PureOps.Ideal

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The entry function's nineteen operations in order, the two calls unfolded: its own twelve, then the leaky
    ReLU's six (the zero, its broadcast, the comparison, the slope converted to its own type, its broadcast, the
    product) and the choice. -/
abbrev ops : List (HloOp τ sig (Elt F)) :=
  [ unary main_arg0 main_v0 ((extractStridedSlice S10000x64 ![0, 0] · slices_S10000x128_S10000x64_0_0) : (⟨S10000x128, .f32⟩ : BufTy).Contents (Elt F) → (⟨S10000x64, .f32⟩ : BufTy).Contents (Elt F)),
    unary main_arg0 main_v1 ((extractStridedSlice S10000x64 ![0, 64] · slices_S10000x128_S10000x64_0_64) : (⟨S10000x128, .f32⟩ : BufTy).Contents (Elt F) → (⟨S10000x64, .f32⟩ : BufTy).Contents (Elt F)),
    binary main_arg1 main_v0 main_v2 ((fun l r => Host.dotGeneral dot_S10000x10000_S10000x64_S10000x64_1_0_0_1_n_n none l r) : (⟨S10000x10000, .f32⟩ : BufTy).Contents (Elt F) → (⟨S10000x64, .f32⟩ : BufTy).Contents (Elt F) → (⟨S10000x64, .f32⟩ : BufTy).Contents (Elt F)),
    binary main_arg1 main_v1 main_v3 ((fun l r => Host.dotGeneral dot_S10000x10000_S10000x64_S10000x64_1_0_0_1_n_n none l r) : (⟨S10000x10000, .f32⟩ : BufTy).Contents (Elt F) → (⟨S10000x64, .f32⟩ : BufTy).Contents (Elt F) → (⟨S10000x64, .f32⟩ : BufTy).Contents (Elt F)),
    binary main_v2 main_v3 main_v4 ((fun a b => concatenate S10000x128 1 [⟨S10000x64, a⟩, ⟨S10000x64, b⟩] concatenates_S10000x64_S10000x64_S10000x128_d1) : (⟨S10000x64, .f32⟩ : BufTy).Contents (Elt F) → (⟨S10000x64, .f32⟩ : BufTy).Contents (Elt F) → (⟨S10000x128, .f32⟩ : BufTy).Contents (Elt F)),
    binary main_arg0 main_v4 main_v5 (addf : (⟨S10000x128, .f32⟩ : BufTy).Contents (Elt F) → (⟨S10000x128, .f32⟩ : BufTy).Contents (Elt F) → (⟨S10000x128, .f32⟩ : BufTy).Contents (Elt F)),
    unary main_arg2 main_v6 ((transpose S128x128 [1, 0] · transposes_S128x128_S128x128_1_0) : (⟨S128x128, .f32⟩ : BufTy).Contents (Elt F) → (⟨S128x128, .f32⟩ : BufTy).Contents (Elt F)),
    binary main_v5 main_v6 main_v7 ((fun l r => Host.dotGeneral dot_S10000x128_S128x128_S10000x128_1_0_0_1_n_n none l r) : (⟨S10000x128, .f32⟩ : BufTy).Contents (Elt F) → (⟨S128x128, .f32⟩ : BufTy).Contents (Elt F) → (⟨S10000x128, .f32⟩ : BufTy).Contents (Elt F)),
    unary main_arg3 main_v8 (broadcastInDim S1x128 ![1] bcast_S128_S1x128_1 : (⟨S128, .f32⟩ : BufTy).Contents (Elt F) → (⟨S1x128, .f32⟩ : BufTy).Contents (Elt F)),
    unary main_v8 main_v9 (broadcastInDim S10000x128 ![0, 1] bcast_S1x128_S10000x128_0_1 : (⟨S1x128, .f32⟩ : BufTy).Contents (Elt F) → (⟨S10000x128, .f32⟩ : BufTy).Contents (Elt F)),
    binary main_v7 main_v9 main_v10 (addf : (⟨S10000x128, .f32⟩ : BufTy).Contents (Elt F) → (⟨S10000x128, .f32⟩ : BufTy).Contents (Elt F) → (⟨S10000x128, .f32⟩ : BufTy).Contents (Elt F)),
    nullary main_cst (constant S_ .f32 0x3C23D70A#32),
    TRef.nullary main_call0.cst (constant S_ .f32 0x00000000#32),
    TRef.unary main_call0.cst main_call0.v0 (broadcastInDim S10000x128 ![] bcast_S_S10000x128),
    TRef.binary (.of main_v10) main_call0.v0 main_call0.v1 (cmpf .oge),
    TRef.unary (.of main_cst) main_call0.v2 id,
    TRef.unary main_call0.v2 main_call0.v3 (broadcastInDim S10000x128 ![] bcast_S_S10000x128),
    TRef.binary main_call0.v3 (.of main_v10) main_call0.v4 mulf,
    TRef.ternary main_call0.v1 (.of main_v10) main_call0.v4 main_call0.call0.v0 select ]

/-- The entry function is that straight line: the two functions' definitions unfolded at their calls, both sides
    are one chain of host steps once sequencing is reassociated. -/
theorem main_eq (c : Dev nD) : main (F := F) c = seq ops := by
  simp only [main, fn_leaky_relu.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨unary_bufs_sub .., unary_bufs_sub .., binary_bufs_sub .., binary_bufs_sub .., binary_bufs_sub .., binary_bufs_sub ..,
    unary_bufs_sub .., binary_bufs_sub .., unary_bufs_sub .., unary_bufs_sub .., binary_bufs_sub .., nullary_bufs_sub ..,
    nullary_bufs_sub .., unary_bufs_sub .., binary_bufs_sub .., unary_bufs_sub .., unary_bufs_sub .., binary_bufs_sub ..,
    ternary_bufs_sub ..⟩

/-- The sum of the node's own row and its neighbours' rows, as the program composes it: the adjacency matrix
    times each half of the columns, the two products side by side, plus the embedding. -/
def aggTerm (x : FVec F S10000x128 .f32) (A : FVec F S10000x10000 .f32) : FVec F S10000x128 .f32 :=
  addf x
    (concatenate S10000x128 1
      [⟨S10000x64, Host.dotGeneral dot_S10000x10000_S10000x64_S10000x64_1_0_0_1_n_n none A
          (extractStridedSlice S10000x64 ![0, 0] x slices_S10000x128_S10000x64_0_0)⟩,
       ⟨S10000x64, Host.dotGeneral dot_S10000x10000_S10000x64_S10000x64_1_0_0_1_n_n none A
          (extractStridedSlice S10000x64 ![0, 64] x slices_S10000x128_S10000x64_0_64)⟩]
      concatenates_S10000x64_S10000x64_S10000x128_d1)

/-- The linear layer as the program composes it: the product with the transposed weights plus the bias
    broadcast along the rows. -/
def linTerm (x : FVec F S10000x128 .f32) (A : FVec F S10000x10000 .f32) (W : FVec F S128x128 .f32)
    (b : FVec F S128 .f32) : FVec F S10000x128 .f32 :=
  addf
    (Host.dotGeneral dot_S10000x128_S128x128_S10000x128_1_0_0_1_n_n none (aggTerm x A)
      (transpose S128x128 [1, 0] W transposes_S128x128_S128x128_1_0))
    (broadcastInDim S10000x128 ![0, 1] bcast_S1x128_S10000x128_0_1
      (broadcastInDim S1x128 ![1] bcast_S128_S1x128_1 b))

/-- The operations' composed pure term: the leaky ReLU of the linear layer, a comparison with the broadcast
    zero choosing between the value and the value scaled by the broadcast slope. -/
def refTermF (x : FVec F S10000x128 .f32) (A : FVec F S10000x10000 .f32) (W : FVec F S128x128 .f32)
    (b : FVec F S128 .f32) : FVec F S10000x128 .f32 :=
  select
    (cmpf .oge (linTerm x A W b)
      (broadcastInDim S10000x128 ![] bcast_S_S10000x128 (constant S_ .f32 0x00000000#32)))
    (linTerm x A W b)
    (mulf (broadcastInDim S10000x128 ![] bcast_S_S10000x128 (id (constant S_ .f32 0x3C23D70A#32)))
      (linTerm x A W b))

/-- The composed term at the extended reals. -/
def refTerm (x : FVec Ideal S10000x128 .f32) (A : FVec Ideal S10000x10000 .f32) (W : FVec Ideal S128x128 .f32)
    (b : FVec Ideal S128 .f32) : FVec Ideal S10000x128 .f32 :=
  refTermF (F := Ideal) x A W b

/-- On every device, for any float values, from any memory with zero counters: every weakly fair execution of
    the entry function terminates with the result at the operations' composed term of the arguments and the
    arguments unchanged. -/
theorem runF (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v11) = refTermF (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v11).trans (by after_results_simp; rfl),
      (h c main_arg0).trans (by after_results_simp),
      (h c main_arg1).trans (by after_results_simp),
      (h c main_arg2).trans (by after_results_simp),
      (h c main_arg3).trans (by after_results_simp)⟩)
    (run_seq scopedRefs_eq scopedSems_eq defs main (fun _ => ops) main_eq (fun _ => ops_sub) m ρ)

/-- The run at the extended reals. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v11) = refTerm (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  runF (F := Ideal) m ρ

end Cert.ReferenceIdeal.RefRun

end
-- ==== Proof.RefValue.lean ====
/-
  The reference program's composed term is the function of the specification, index by index over the extended
  reals.  Each layout operation reads its operand at one index: a column slice at the column moved by its offset,
  the two half-width products side by side at the column of the half it falls in, the transposed weights at the
  swapped index, the bias row at its column.  Each matrix product is the sum over the contracted coordinate of
  the products of the entries.  So the aggregated row is the node's own entry plus the adjacency-weighted sum,
  the linear layer the sum over the columns plus the bias, and the result its leaky ReLU.
-/
import proofs.«118306_g84293028151720_cont_9to1_m_1401_9_alg».proof.Proof.RefRun
import proofs.«118306_g84293028151720_cont_9to1_m_1401_9_alg».proof.Proof.Spec
import Idealize.ShloMosaic.PureOps.Ideal.Laws
import Idealize.ShloMosaic.Lib.Pipeline.Value
import Idealize.ShloMosaic.Lib.ValueIdx
import Idealize.ShloMosaic.Lib.ValueLayout
import Idealize.ShloMosaic.Lib.KernelVsHost
import Idealize.ShloMosaic.Lib.StackMember

noncomputable section

namespace Cert.ReferenceIdeal.RefValue

open Cert.ReferenceIdeal Cert.ReferenceIdeal.Gen Idealize.ShloMosaic Idealize.ShloMosaic.ValueIdx
open Idealize.ShloMosaic.StackMember

/-- The adjacency matrix times a half-width block of columns, at an index: the sum over the nodes. -/
theorem dotA_apply (A : FVec Ideal S10000x10000 .f32) (B : FVec Ideal S10000x64 .f32) (r : Fin 10000) (c : Fin 64) :
    Host.dotGeneral dot_S10000x10000_S10000x64_S10000x64_1_0_0_1_n_n none A B (ix2 r c)
      = ∑ k : Fin 10000, A (ix2 r k) * B (ix2 k c) :=
  dotGeneral_plain_apply (m := 10000) (n := 64) (k := 10000) none A B r c

/-- The aggregated rows times a square matrix, at an index: the sum over the columns. -/
theorem dotW_apply (Y : FVec Ideal S10000x128 .f32) (V : FVec Ideal S128x128 .f32) (r : Fin 10000) (j : Fin 128) :
    Host.dotGeneral dot_S10000x128_S128x128_S10000x128_1_0_0_1_n_n none Y V (ix2 r j)
      = ∑ d : Fin 128, Y (ix2 r d) * V (ix2 d j) :=
  dotGeneral_plain_apply (m := 10000) (n := 128) (k := 128) none Y V r j

/-- The two half-width products side by side, at column `d`: whichever half `d` falls in, the adjacency-weighted
    sum of column `d` of the embeddings. -/
theorem concat_apply (x : FVec Ideal S10000x128 .f32) (A : FVec Ideal S10000x10000 .f32) (r : Fin 10000) (d : Fin 128) :
    concatenate S10000x128 1
      [⟨S10000x64, Host.dotGeneral dot_S10000x10000_S10000x64_S10000x64_1_0_0_1_n_n none A
          (extractStridedSlice S10000x64 ![0, 0] x slices_S10000x128_S10000x64_0_0)⟩,
       ⟨S10000x64, Host.dotGeneral dot_S10000x10000_S10000x64_S10000x64_1_0_0_1_n_n none A
          (extractStridedSlice S10000x64 ![0, 64] x slices_S10000x128_S10000x64_0_64)⟩]
      concatenates_S10000x64_S10000x64_S10000x128_d1 (ix2 r d)
      = ∑ k : Fin 10000, A (ix2 r k) * x (ix2 k d) := by
  by_cases hd : d.val < 64
  · -- the first half: column `d` of the first product, whose right factor is the slice from column 0
    rw [concatenate_pair_apply_left (1 : Fin S10000x128.rank) _ _ concatenates_S10000x64_S10000x64_S10000x128_d1
      (ix2 r d) rfl (ix2 r (⟨d.val, hd⟩ : Fin 64)) (by intro b; match b with | ⟨0, _⟩ => rfl | ⟨1, _⟩ => rfl)]
    rw [dotA_apply]
    refine Finset.sum_congr rfl fun k _ => ?_
    rw [slice2_axis1_apply 0 x slices_S10000x128_S10000x64_0_0 k (⟨d.val, hd⟩ : Fin 64) d (Nat.zero_add _).symm]
  · -- the second half: column `d - 64` of the second product, whose right factor is the slice from column 64
    have hd' : d.val - 64 < 64 := by have := d.isLt; omega
    rw [concatenate_pair_apply_right (1 : Fin S10000x128.rank) _ _ concatenates_S10000x64_S10000x64_S10000x128_d1
      (ix2 r d) rfl rfl (ix2 r (⟨d.val - 64, hd'⟩ : Fin 64))
      (by intro b hb; match b, hb with | ⟨0, _⟩, _ => rfl | ⟨1, _⟩, hb => exact absurd rfl hb)
      (by show d.val - 64 + 64 = d.val; omega)]
    rw [dotA_apply]
    refine Finset.sum_congr rfl fun k _ => ?_
    rw [slice2_axis1_apply 64 x slices_S10000x128_S10000x64_0_64 k (⟨d.val - 64, hd'⟩ : Fin 64) d
      (by show d.val = 64 + (d.val - 64); omega)]

/-- The program's aggregation at an index is the specification's. -/
theorem aggTerm_apply (x : FVec Ideal S10000x128 .f32) (A : FVec Ideal S10000x10000 .f32) (r : Fin 10000) (d : Fin 128) :
    RefRun.aggTerm (F := Ideal) x A (ix2 r d) = Cert.Agg.agg x A r d := by
  unfold RefRun.aggTerm Cert.Agg.agg
  rw [addf_apply, concat_apply]

/-- The bias laid along the rows, at an index: the bias at the column. -/
theorem bias_apply (b : FVec Ideal S128 .f32) (r : Fin 10000) (j : Fin 128) :
    broadcastInDim S10000x128 ![0, 1] bcast_S1x128_S10000x128_0_1
      (broadcastInDim S1x128 ![1] bcast_S128_S1x128_1 b) (ix2 r j) = b (ix1 j) := by
  rw [broadcastInDim_oneRow_apply]
  exact broadcastInDim_apply ![1] bcast_S128_S1x128_1 b (ix2 (0 : Fin 1) j) (ix1 j)
    (by intro a; match a with | ⟨0, _⟩ => rfl)

/-- The program's linear layer at an index is the specification's. -/
theorem linTerm_apply (x : FVec Ideal S10000x128 .f32) (A : FVec Ideal S10000x10000 .f32) (W : FVec Ideal S128x128 .f32)
    (b : FVec Ideal S128 .f32) (r : Fin 10000) (j : Fin 128) :
    RefRun.linTerm (F := Ideal) x A W b (ix2 r j) = Cert.Agg.lin x A W b r j := by
  unfold RefRun.linTerm Cert.Agg.lin
  rw [addf_apply, dotW_apply, bias_apply]
  congr 1
  refine Finset.sum_congr rfl fun d _ => ?_
  rw [aggTerm_apply, transpose_apply [1, 0] W transposes_S128x128_S128x128_1_0 (ix2 d j) (ix2 j d)
    (by intro c; match c with | ⟨0, _⟩ => rfl | ⟨1, _⟩ => rfl)]

/-- The reference's result is the specification's function of the four arguments. -/
theorem refTerm_eq (x : FVec Ideal S10000x128 .f32) (A : FVec Ideal S10000x10000 .f32) (W : FVec Ideal S128x128 .f32)
    (b : FVec Ideal S128 .f32) : RefRun.refTerm x A W b = Cert.Agg.G x A W b := by
  funext i
  obtain ⟨r, j, rfl⟩ : ∃ (r : Fin 10000) (j : Fin 128), i = ix2 r j := ⟨i 0, i 1, eq_ix2 i⟩
  rw [Cert.Agg.G_apply, ← linTerm_apply x A W b r j]
  rfl

end Cert.ReferenceIdeal.RefValue

end
-- ==== Proof.lean ====
/-
  The certificate of the graph-aggregation kernel against its reference.

  Both programs compute, from the node embeddings x, the adjacency matrix A, the weights W and the bias b,

      out r j = leaky ((∑ d, (x r d + ∑ k, A r k · x k d) · W j d) + b j)

  over the extended reals.  The kernel does it on 25 grid points, each producing 200 rows of the upper half and 200
  rows of the lower half of the result from two row slabs of A, and joins the halves; the reference multiplies A
  with the left and the right 64 columns of x separately and joins the columns.  A finite sum over the extended
  reals does not depend on how its index set is cut or ordered, so the two are one function; no finiteness of the
  inputs is used.

  The three frames (each program runs to the end, faults nowhere, leaves its arguments as they were) are the runs of
  the programs with the result dropped.  The idealization rewrote nothing, so its statement is trivial.
-/
import proofs.«118306_g84293028151720_cont_9to1_m_1401_9_alg».proof.Defs
import proofs.«118306_g84293028151720_cont_9to1_m_1401_9_alg».proof.Proof.Gen.Kernel
import proofs.«118306_g84293028151720_cont_9to1_m_1401_9_alg».proof.Proof.Gen.KernelIdeal
import proofs.«118306_g84293028151720_cont_9to1_m_1401_9_alg».proof.Proof.Gen.ReferenceIdeal
import proofs.«118306_g84293028151720_cont_9to1_m_1401_9_alg».proof.Proof.Gen.Pre_finite_inputs
import proofs.«118306_g84293028151720_cont_9to1_m_1401_9_alg».proof.Proof.HostB
import proofs.«118306_g84293028151720_cont_9to1_m_1401_9_alg».proof.Proof.KernelValue
import proofs.«118306_g84293028151720_cont_9to1_m_1401_9_alg».proof.Proof.RefValue
import Idealize.ShloMosaic.Adequacy
import Idealize.ShloMosaic.Init

noncomputable section

namespace Cert.Proof

open Idealize.ShloMosaic Idealize.ShloMosaic.TcCoe Idealize.SL.Sem

/-- The word-level kernel's frame: its run, read at the four arguments. -/
theorem frame_k : Cert.frame_Kernel := fun m ρ _ =>
  (θ_run (Cert.Kernel.defs (F := Bits)) _ _).mono (fun r h c =>
    ⟨(h c _ (Cert.Kernel.Run.mem_uc Cert.Kernel.main_arg0 (by decide))).trans (Cert.Kernel.HostOps.W3_arg0 m c),
     (h c _ (Cert.Kernel.Run.mem_uc Cert.Kernel.main_arg1 (by decide))).trans (Cert.Kernel.HostOps.W3_arg1 m c),
     (h c _ (Cert.Kernel.Run.mem_uc Cert.Kernel.main_arg2 (by decide))).trans (Cert.Kernel.HostOps.W3_arg2 m c),
     (h c _ (Cert.Kernel.Run.mem_uc Cert.Kernel.main_arg3 (by decide))).trans (Cert.Kernel.HostOps.W3_arg3 m c)⟩)
    (Cert.Kernel.Run.run (F := Bits) m ρ)

/-- The idealized kernel's frame: the same run at the extended reals. -/
theorem frame_ki : Cert.frame_KernelIdeal := fun m ρ _ =>
  (θ_run (Cert.KernelIdeal.defs (F := Ideal)) _ _).mono (fun r h c =>
    ⟨(h c _ (Cert.KernelIdeal.Run.mem_uc Cert.KernelIdeal.main_arg0 (by decide))).trans (Cert.KernelIdeal.HostOps.W3_arg0 m c),
     (h c _ (Cert.KernelIdeal.Run.mem_uc Cert.KernelIdeal.main_arg1 (by decide))).trans (Cert.KernelIdeal.HostOps.W3_arg1 m c),
     (h c _ (Cert.KernelIdeal.Run.mem_uc Cert.KernelIdeal.main_arg2 (by decide))).trans (Cert.KernelIdeal.HostOps.W3_arg2 m c),
     (h c _ (Cert.KernelIdeal.Run.mem_uc Cert.KernelIdeal.main_arg3 (by decide))).trans (Cert.KernelIdeal.HostOps.W3_arg3 m c)⟩)
    (Cert.KernelIdeal.Run.run (F := Ideal) m ρ)

/-- The reference's frame: its run with the result dropped. -/
theorem frame_ri : Cert.frame_ReferenceIdeal := fun m ρ _ =>
  (θ_run (Cert.ReferenceIdeal.defs (F := Ideal)) _ _).mono (fun _ h c => (h c).2) (Cert.ReferenceIdeal.RefRun.run m ρ)

/-- The idealization rewrote no operation. -/
theorem preserves : Cert.preserves_Kernel_KernelIdeal := trivial

/-- Both programs end with the one function of the arguments: the kernel's two halves joined are it, and so is the
    reference's composed term. -/
theorem algebraic : Cert.algebraic_KernelIdeal_ReferenceIdeal := by
  intro m ρ m' ρ' _ hagree
  refine ⟨fun c => Cert.Agg.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · exact (θ_run (Cert.KernelIdeal.defs (F := Ideal)) _ _).mono (fun r h c =>
      ⟨(h c _ (Cert.KernelIdeal.Run.mem_uc Cert.KernelIdeal.main_v3 (by decide))).trans (Cert.KernelIdeal.Result.result_eq m c),
       (h c _ (Cert.KernelIdeal.Run.mem_uc Cert.KernelIdeal.main_arg0 (by decide))).trans (Cert.KernelIdeal.HostOps.W3_arg0 m c),
       (h c _ (Cert.KernelIdeal.Run.mem_uc Cert.KernelIdeal.main_arg1 (by decide))).trans (Cert.KernelIdeal.HostOps.W3_arg1 m c),
       (h c _ (Cert.KernelIdeal.Run.mem_uc Cert.KernelIdeal.main_arg2 (by decide))).trans (Cert.KernelIdeal.HostOps.W3_arg2 m c),
       (h c _ (Cert.KernelIdeal.Run.mem_uc Cert.KernelIdeal.main_arg3 (by decide))).trans (Cert.KernelIdeal.HostOps.W3_arg3 m c)⟩)
      (Cert.KernelIdeal.Run.run (F := Ideal) m ρ)
  · refine (θ_run (Cert.ReferenceIdeal.defs (F := Ideal)) _ _).mono (fun r h c => ⟨(h c).1.trans ?_, (h c).2⟩)
      (Cert.ReferenceIdeal.RefRun.run m' ρ')
    rw [Cert.ReferenceIdeal.RefValue.refTerm_eq, (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
